-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8 : Shape := ⟨2, ![65536, 8]⟩
abbrev S65536x4x8x16x4 : Shape := ⟨5, ![65536, 4, 8, 16, 4]⟩
abbrev S32x8 : Shape := ⟨2, ![32, 8]⟩
abbrev S32 : Shape := ⟨1, ![32]⟩
abbrev S64x32 : Shape := ⟨2, ![64, 32]⟩
abbrev S8x512 : Shape := ⟨2, ![8, 512]⟩
abbrev S8 : Shape := ⟨1, ![8]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x32 : Shape := ⟨2, ![1, 32]⟩
abbrev S4x8x64 : Shape := ⟨3, ![4, 8, 64]⟩
abbrev S4 : Shape := ⟨1, ![4]⟩
abbrev S_ : Shape := ⟨0, ![]⟩

class Facts : Prop where
  bcast_S_S65536x8 : S_.BroadcastsInDim S65536x8 (![] : Fin 0 → Fin S65536x8.rank)
  reducesTo_S65536x8_S_d0_1 : S65536x8.ReducesTo [0, 1] S_
  h_S_ : 0 < S_.numel
  bcast_S_S65536x4x8x16x4 : S_.BroadcastsInDim S65536x4x8x16x4 (![] : Fin 0 → Fin S65536x4x8x16x4.rank)
  reducesTo_S65536x4x8x16x4_S_d0_1_2_3_4 : S65536x4x8x16x4.ReducesTo [0, 1, 2, 3, 4] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S8x512 : S_.BroadcastsInDim S8x512 (![] : Fin 0 → Fin S8x512.rank)
  reducesTo_S8x512_S_d0_1 : S8x512.ReducesTo [0, 1] S_
  bcast_S_S8 : S_.BroadcastsInDim S8 (![] : Fin 0 → Fin S8.rank)
  reducesTo_S8_S_d0 : S8.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1x32 : S_.BroadcastsInDim S1x32 (![] : Fin 0 → Fin S1x32.rank)
  reducesTo_S1x32_S_d0_1 : S1x32.ReducesTo [0, 1] S_
  bcast_S_S4x8x64 : S_.BroadcastsInDim S4x8x64 (![] : Fin 0 → Fin S4x8x64.rank)
  reducesTo_S4x8x64_S_d0_1_2 : S4x8x64.ReducesTo [0, 1, 2] S_
  bcast_S_S4 : S_.BroadcastsInDim S4 (![] : Fin 0 → Fin S4.rank)
  reducesTo_S4_S_d0 : S4.ReducesTo [0] S_

variable [Facts]

def fn_part5 {F : FTy → Type} [FloatOps F] (main_arg18 : FVec F S4x8x64 .f32) (main_arg19 : FVec F S4 .f32) (main_v83 : IVec S_ 1) (main_v84 : FVec F S4x8x64 .f32) (main_cst_32 : FVec F S_ .f32) : IVec S_ 1 :=
  let main_v85 : FVec F S4x8x64 .f32 := broadcastInDim S4x8x64 ![] bcast_S_S4x8x64 main_cst_32
  let main_v86 : IVec S4x8x64 1 := cmpf .olt main_v84 main_v85
  let main_c_33 : IVec S_ 1 := constantI S_ 1 1#1
  let main_v87 : IVec S_ 1 := (fun x v => Host.reduce IntOp.andi x v reducesTo_S4x8x64_S_d0_1_2 h_S_) main_v86 main_c_33
  let main_v88 : IVec S_ 1 := andi main_v83 main_v87
  let main_v89 : FVec F S4x8x64 .f32 := Host.absf main_arg18
  let main_cst_34 : FVec F S_ .f32 := constant S_ .f32 0x7F800000#32
  let main_v90 : FVec F S4x8x64 .f32 := broadcastInDim S4x8x64 ![] bcast_S_S4x8x64 main_cst_34
  let main_v91 : IVec S4x8x64 1 := cmpf .olt main_v89 main_v90
  let main_c_35 : IVec S_ 1 := constantI S_ 1 1#1
  let main_v92 : IVec S_ 1 := (fun x v => Host.reduce IntOp.andi x v reducesTo_S4x8x64_S_d0_1_2 h_S_) main_v91 main_c_35
  let main_v93 : IVec S_ 1 := andi main_v88 main_v92
  let main_v94 : FVec F S4 .f32 := Host.absf main_arg19
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  main_v98

def fn_part4 {F : FTy → Type} [FloatOps F] (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1x32 .f32 := Host.absf main_arg15
  let main_cst_28 : FVec F S_ .f32 := constant S_ .f32 0x7F800000#32
  let main_v75 : FVec F S1x32 .f32 := broadcastInDim S1x32 ![] bcast_S_S1x32 main_cst_28
  let main_v76 : IVec S1x32 1 := cmpf .olt main_v74 main_v75
  let main_c_29 : IVec S_ 1 := constantI S_ 1 1#1
  let main_v77 : IVec S_ 1 := (fun x v => Host.reduce IntOp.andi x v reducesTo_S1x32_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S4x8x64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x32 .f32 := Host.absf main_arg13
  let main_cst_24 : FVec F S_ .f32 := constant S_ .f32 0x7F800000#32
  let main_v65 : FVec F S1x32 .f32 := broadcastInDim S1x32 ![] bcast_S_S1x32 main_cst_24
  let main_v66 : IVec S1x32 1 := cmpf .olt main_v64 main_v65
  let main_c_25 : IVec S_ 1 := constantI S_ 1 1#1
  let main_v67 : IVec S_ 1 := (fun x v => Host.reduce IntOp.andi x v reducesTo_S1x32_S_d0_1 h_S_) main_v66 main_c_25
  fn_part4 (F := F) main_arg14 main_arg15 main_arg16 main_arg17 main_arg18 main_arg19 main_v63 main_v67

def fn_part2 {F : FTy → Type} [FloatOps F] (main_arg7 : FVec F S64x64 .f32) (main_arg8 : FVec F S64 .f32) (main_arg9 : FVec F S1x64 .f32) (main_arg10 : FVec F S1 .f32) (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x32 .f32) (main_arg5 : FVec F S8x512 .f32) (main_arg6 : FVec F S8 .f32) (main_arg7 : FVec F S64x64 .f32) (main_arg8 : FVec F S64 .f32) (main_arg9 : FVec F S1x64 .f32) (main_arg10 : FVec F S1 .f32) (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S8x512 .f32 := Host.absf main_arg5
  let main_cst_8 : FVec F S_ .f32 := constant S_ .f32 0x7F800000#32
  let main_v25 : FVec F S8x512 .f32 := broadcastInDim S8x512 ![] bcast_S_S8x512 main_cst_8
  let main_v26 : IVec S8x512 1 := cmpf .olt main_v24 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S65536x8 .f32) (main_arg1 : FVec F S65536x4x8x16x4 .f32) (main_arg2 : FVec F S32x8 .f32) (main_arg3 : FVec F S32 .f32) (main_arg4 : FVec F S64x32 .f32) (main_arg5 : FVec F S8x512 .f32) (main_arg6 : FVec F S8 .f32) (main_arg7 : FVec F S64x64 .f32) (main_arg8 : FVec F S64 .f32) (main_arg9 : FVec F S1x64 .f32) (main_arg10 : FVec F S1 .f32) (main_arg11 : FVec F S1x64 .f32) (main_arg12 : FVec F S1 .f32) (main_arg13 : FVec F S1x32 .f32) (main_arg14 : FVec F S1 .f32) (main_arg15 : FVec F S1x32 .f32) (main_arg16 : FVec F S1 .f32) (main_arg17 : FVec F S4x8x64 .f32) (main_arg18 : FVec F S4x8x64 .f32) (main_arg19 : FVec F S4 .f32) : IVec S_ 1 :=
  let main_v0 : FVec F S65536x8 .f32 := Host.absf main_arg0
  let main_cst : FVec F S_ .f32 := constant S_ .f32 0x7F800000#32
  let main_v1 : FVec F S65536x8 .f32 := broadcastInDim S65536x8 ![] bcast_S_S65536x8 main_cst
  let main_v2 : IVec S65536x8 1 := cmpf .olt main_v0 main_v1
  let main_c : IVec S_ 1 := constantI S_ 1 1#1
  let main_v3 : IVec S_ 1 := (fun x v => Host.reduce IntOp.andi x v reducesTo_S65536x8_S_d0_1 h_S_) main_v2 main_c
  let main_v4 : FVec F S65536x4x8x16x4 .f32 := Host.absf main_arg1
  let main_cst_0 : FVec F S_ .f32 := constant S_ .f32 0x7F800000#32
  let main_v5 : FVec F S65536x4x8x16x4 .f32 := broadcastInDim S65536x4x8x16x4 ![] bcast_S_S65536x4x8x16x4 main_cst_0
  let main_v6 : IVec S65536x4x8x16x4 1 := cmpf .olt main_v4 main_v5
  let main_c_1 : IVec S_ 1 := constantI S_ 1 1#1
  let main_v7 : IVec S_ 1 := (fun x v => Host.reduce IntOp.andi x v reducesTo_S65536x4x8x16x4_S_d0_1_2_3_4 h_S_) main_v6 main_c_1
  let main_v8 : IVec S_ 1 := andi main_v3 main_v7
  let main_v9 : FVec F S32x8 .f32 := Host.absf main_arg2
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S65536x8 : Shape := ⟨2, ![65536, 8]⟩
abbrev S65536x4x8x16x4 : Shape := ⟨5, ![65536, 4, 8, 16, 4]⟩
abbrev S32x8 : Shape := ⟨2, ![32, 8]⟩
abbrev S32 : Shape := ⟨1, ![32]⟩
abbrev S64x32 : Shape := ⟨2, ![64, 32]⟩
abbrev S8x512 : Shape := ⟨2, ![8, 512]⟩
abbrev S8 : Shape := ⟨1, ![8]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x32 : Shape := ⟨2, ![1, 32]⟩
abbrev S4x8x64 : Shape := ⟨3, ![4, 8, 64]⟩
abbrev S4 : Shape := ⟨1, ![4]⟩
abbrev S65536x4x512 : Shape := ⟨3, ![65536, 4, 512]⟩
abbrev S_ : Shape := ⟨0, ![]⟩
abbrev S4x512 : Shape := ⟨2, ![4, 512]⟩
abbrev S32x64 : Shape := ⟨2, ![32, 64]⟩
abbrev S2x32 : Shape := ⟨2, ![2, 32]⟩
abbrev S2 : Shape := ⟨1, ![2]⟩
abbrev S2x64 : Shape := ⟨2, ![2, 64]⟩
abbrev S1024x8 : Shape := ⟨2, ![1024, 8]⟩
abbrev S1024x4x512 : Shape := ⟨3, ![1024, 4, 512]⟩
abbrev S8x32 : Shape := ⟨2, ![8, 32]⟩
abbrev S1024x32 : Shape := ⟨2, ![1024, 32]⟩
abbrev S32x2 : Shape := ⟨2, ![32, 2]⟩
abbrev S1024x2 : Shape := ⟨2, ![1024, 2]⟩
abbrev S1x2 : Shape := ⟨2, ![1, 2]⟩
abbrev S1024x1 : Shape := ⟨2, ![1024, 1]⟩
abbrev S1024x64 : Shape := ⟨2, ![1024, 64]⟩
abbrev S64x2 : Shape := ⟨2, ![64, 2]⟩
abbrev S1024x4x8 : Shape := ⟨3, ![1024, 4, 8]⟩
abbrev S1x4x1 : Shape := ⟨3, ![1, 4, 1]⟩
abbrev S1024x1x1 : Shape := ⟨3, ![1024, 1, 1]⟩
abbrev S1x4x512 : Shape := ⟨3, ![1, 4, 512]⟩
abbrev S1024x512 : Shape := ⟨2, ![1024, 512]⟩
abbrev S1024x1x64 : Shape := ⟨3, ![1024, 1, 64]⟩
abbrev S1024x8x1 : Shape := ⟨3, ![1024, 8, 1]⟩
abbrev S1024x8x64 : Shape := ⟨3, ![1024, 8, 64]⟩
abbrev S512x8 : Shape := ⟨2, ![512, 8]⟩
abbrev S1x8 : Shape := ⟨2, ![1, 8]⟩

abbrev nBuf : Space → Nat
  | .hbm => 39
  | .vmem => 20
  | .smem => 0
  | _ => 0

abbrev bufTy : (tb : Table) → Fin (tcTables nBuf tb) → BufTy
  | .hbm, ⟨0, _⟩ => ⟨S65536x8, .f32⟩
  | .hbm, ⟨1, _⟩ => ⟨S65536x4x8x16x4, .f32⟩
  | .hbm, ⟨2, _⟩ => ⟨S32x8, .f32⟩
  | .hbm, ⟨3, _⟩ => ⟨S32, .f32⟩
  | .hbm, ⟨4, _⟩ => ⟨S64x32, .f32⟩
  | .hbm, ⟨5, _⟩ => ⟨S8x512, .f32⟩
  | .hbm, ⟨6, _⟩ => ⟨S8, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S1x64, .f32⟩
  | .hbm, ⟨12, _⟩ => ⟨S1, .f32⟩
  | .hbm, ⟨13, _⟩ => ⟨S1x32, .f32⟩
  | .hbm, ⟨14, _⟩ => ⟨S1, .f32⟩
  | .hbm, ⟨15, _⟩ => ⟨S1x32, .f32⟩
  | .hbm, ⟨16, _⟩ => ⟨S1, .f32⟩
  | .hbm, ⟨17, _⟩ => ⟨S4x8x64, .f32⟩
  | .hbm, ⟨18, _⟩ => ⟨S4x8x64, .f32⟩
  | .hbm, ⟨19, _⟩ => ⟨S4, .f32⟩
  | .hbm, ⟨20, _⟩ => ⟨S65536x4x512, .f32⟩
  | .hbm, ⟨21, _⟩ => ⟨S4x8x64, .f32⟩
  | .hbm, ⟨22, _⟩ => ⟨S4x8x64, .f32⟩
  | .hbm, ⟨23, _⟩ => ⟨S_, .f32⟩
  | .hbm, ⟨24, _⟩ => ⟨S4x8x64, .f32⟩
  | .hbm, ⟨25, _⟩ => ⟨S4x8x64, .f32⟩
  | .hbm, ⟨26, _⟩ => ⟨S_, .f32⟩
  | .hbm, ⟨27, _⟩ => ⟨S4x8x64, .f32⟩
  | .hbm, ⟨28, _⟩ => ⟨S4x8x64, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S32x64, .f32⟩
  | .hbm, ⟨34, _⟩ => ⟨S2x32, .f32⟩
  | .hbm, ⟨35, _⟩ => ⟨S2, .f32⟩
  | .hbm, ⟨36, _⟩ => ⟨S2x64, .f32⟩
  | .hbm, ⟨37, _⟩ => ⟨S2, .f32⟩
  | .hbm, ⟨38, _⟩ => ⟨S65536x8, .f32⟩
  | .local _ .vmem, ⟨0, _⟩ => ⟨S1024x8, .f32⟩
  | .local _ .vmem, ⟨1, _⟩ => ⟨S1024x8, .f32⟩
  | .local _ .vmem, ⟨2, _⟩ => ⟨S1024x4x512, .f32⟩
  | .local _ .vmem, ⟨3, _⟩ => ⟨S1024x4x512, .f32⟩
  | .local _ .vmem, ⟨4, _⟩ => ⟨S32x8, .f32⟩
  | .local _ .vmem, ⟨5, _⟩ => ⟨S32, .f32⟩
  | .local _ .vmem, ⟨6, _⟩ => ⟨S64x32, .f32⟩
  | .local _ .vmem, ⟨7, _⟩ => ⟨S8x512, .f32⟩
  | .local _ .vmem, ⟨8, _⟩ => ⟨S8, .f32⟩
  | .local _ .vmem, ⟨9, _⟩ => ⟨S64x64, .f32⟩
  | .local _ .vmem, ⟨10, _⟩ => ⟨S64, .f32⟩
  | .local _ .vmem, ⟨11, _⟩ => ⟨S2x32, .f32⟩
  | .local _ .vmem, ⟨12, _⟩ => ⟨S2, .f32⟩
  | .local _ .vmem, ⟨13, _⟩ => ⟨S2x64, .f32⟩
  | .local _ .vmem, ⟨14, _⟩ => ⟨S2, .f32⟩
  | .local _ .vmem, ⟨15, _⟩ => ⟨S4x512, .f32⟩
  | .local _ .vmem, ⟨16, _⟩ => ⟨S32x64, .f32⟩
  | .local _ .vmem, ⟨17, _⟩ => ⟨S4, .f32⟩
  | .local _ .vmem, ⟨18, _⟩ => ⟨S1024x8, .f32⟩
  | .local _ .vmem, ⟨19, _⟩ => ⟨S1024x8, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S65536x4x8x16x4_S65536x4x512 : S65536x4x8x16x4.ShapeCasts S65536x4x512
  bcast_S_S4x8x64 : S_.BroadcastsInDim S4x8x64 (![] : Fin 0 → Fin S4x8x64.rank)
  shapeCasts_S4x8x64_S4x512 : S4x8x64.ShapeCasts S4x512
  bcast_S_S4x512 : S_.BroadcastsInDim S4x512 (![] : Fin 0 → Fin S4x512.rank)
  shapeCasts_S4x8x64_S32x64 : S4x8x64.ShapeCasts S32x64
  concatenates_S1x32_S1x32_S2x32_d0 : Shape.Concatenates [S1x32, S1x32] S2x32 0
  concatenates_S1_S1_S2_d0 : Shape.Concatenates [S1, S1] S2 0
  concatenates_S1x64_S1x64_S2x64_d0 : Shape.Concatenates [S1x64, S1x64] S2x64 0
  inb_S1024x8_S1024x8_0_0 : ∀ a, (![0, 0] : Fin 2 → Nat) a + S1024x8.size a ≤ S1024x8.size a
  h_S1024x8 : 0 < S1024x8.numel
  bitsLt_bf16_f32 : FTy.bits .bf16 < FTy.bits .f32
  inb_S32x8_S32x8_0_0 : ∀ a, (![0, 0] : Fin 2 → Nat) a + S32x8.size a ≤ S32x8.size a
  h_S32x8 : 0 < S32x8.numel
  inb_S32_S32_0 : ∀ a, (![0] : Fin 1 → Nat) a + S32.size a ≤ S32.size a
  h_S32 : 0 < S32.numel
  transposes_S32x8_p1_0_S8x32 : S32x8.Transposes [1, 0] S8x32
  shapeCasts_S32_S1x32 : S32.ShapeCasts S1x32
  broadcasts_S1x32_S1024x32 : S1x32.Broadcasts S1024x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S2_S2_0 : ∀ a, (![0] : Fin 1 → Nat) a + S2.size a ≤ S2.size a
  h_S2 : 0 < S2.numel
  shapeCasts_S2_S2 : S2.ShapeCasts S2
  transposes_S2x32_p1_0_S32x2 : S2x32.Transposes [1, 0] S32x2
  shapeCasts_S2_S1x2 : S2.ShapeCasts S1x2
  broadcasts_S1x2_S1024x2 : S1x2.Broadcasts S1024x2
  slices_S1024x2_o0_0_S1024x1 : S1024x2.Slices ![0, 0] S1024x1
  slices_S1024x2_o0_1_S1024x1 : S1024x2.Slices ![0, 1] S1024x1
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  transposes_S64x64_p1_0_S64x64 : S64x64.Transposes [1, 0] S64x64
  shapeCasts_S64_S1x64 : S64.ShapeCasts S1x64
  broadcasts_S1x64_S1024x64 : S1x64.Broadcasts S1024x64
  inb_S2x64_S2x64_0_0 : ∀ a, (![0, 0] : Fin 2 → Nat) a + S2x64.size a ≤ S2x64.size a
  h_S2x64 : 0 < S2x64.numel
  shapeCasts_S2x64_S2x64 : S2x64.ShapeCasts S2x64
  transposes_S2x64_p1_0_S64x2 : S2x64.Transposes [1, 0] S64x2
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S32x64_p1_0_S64x32 : S32x64.Transposes [1, 0] S64x32
  shapeCasts_S1024x32_S1024x4x8 : S1024x32.ShapeCasts S1024x4x8
  inb_S4_S4_0 : ∀ a, (![0] : Fin 1 → Nat) a + S4.size a ≤ S4.size a
  h_S4 : 0 < S4.numel
  shapeCasts_S4_S1x4x1 : S4.ShapeCasts S1x4x1
  broadcasts_S1x4x1_S1024x4x8 : S1x4x1.Broadcasts S1024x4x8
  shapeCasts_S1024x1_S1024x1x1 : S1024x1.ShapeCasts S1024x1x1
  broadcasts_S1024x1x1_S1024x4x8 : S1024x1x1.Broadcasts S1024x4x8
  reduces_S1024x4x8_S1024x8 : S1024x4x8.Reduces [1] S1024x8
  inb_S1024x4x512_S1024x4x512_0_0_0 : ∀ a, (![0, 0, 0] : Fin 3 → Nat) a + S1024x4x512.size a ≤ S1024x4x512.size a
  h_S1024x4x512 : 0 < S1024x4x512.numel
  shapeCasts_S1024x4x512_S1024x4x512 : S1024x4x512.ShapeCasts S1024x4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  shapeCasts_S4x512_S1x4x512 : S4x512.ShapeCasts S1x4x512
  broadcasts_S1x4x512_S1024x4x512 : S1x4x512.Broadcasts S1024x4x512
  reduces_S1024x4x512_S1024x512 : S1024x4x512.Reduces [1] S1024x512
  broadcasts_S1024x1_S1024x64 : S1024x1.Broadcasts S1024x64
  shapeCasts_S1024x64_S1024x1x64 : S1024x64.ShapeCasts S1024x1x64
  shapeCasts_S1024x8_S1024x8x1 : S1024x8.ShapeCasts S1024x8x1
  broadcasts_S1024x1x64_S1024x8x64 : S1024x1x64.Broadcasts S1024x8x64
  broadcasts_S1024x8x1_S1024x8x64 : S1024x8x1.Broadcasts S1024x8x64
  shapeCasts_S1024x8x64_S1024x512 : S1024x8x64.ShapeCasts S1024x512
  inb_S8x512_S8x512_0_0 : ∀ a, (![0, 0] : Fin 2 → Nat) a + S8x512.size a ≤ S8x512.size a
  h_S8x512 : 0 < S8x512.numel
  inb_S8_S8_0 : ∀ a, (![0] : Fin 1 → Nat) a + S8.size a ≤ S8.size a
  h_S8 : 0 < S8.numel
  transposes_S8x512_p1_0_S512x8 : S8x512.Transposes [1, 0] S512x8
  shapeCasts_S8_S1x8 : S8.ShapeCasts S1x8
  broadcasts_S1x8_S1024x8 : S1x8.Broadcasts S1024x8
  dot_S1024x8_S8x32_S1024x32_1_0_0_1_n_n_wf : DotDims.WF S1024x8 S8x32 S1024x32 [1] [0] [0] [1] [] []
  dot_S1024x32_S32x2_S1024x2_1_0_0_1_n_n_wf : DotDims.WF S1024x32 S32x2 S1024x2 [1] [0] [0] [1] [] []
  dot_S1024x32_S32x64_S1024x64_1_0_0_1_n_n_wf : DotDims.WF S1024x32 S32x64 S1024x64 [1] [0] [0] [1] [] []
  dot_S1024x64_S64x64_S1024x64_1_0_0_1_n_n_wf : DotDims.WF S1024x64 S64x64 S1024x64 [1] [0] [0] [1] [] []
  dot_S1024x64_S64x2_S1024x2_1_0_0_1_n_n_wf : DotDims.WF S1024x64 S64x2 S1024x2 [1] [0] [0] [1] [] []
  dot_S1024x64_S64x32_S1024x32_1_0_0_1_n_n_wf : DotDims.WF S1024x64 S64x32 S1024x32 [1] [0] [0] [1] [] []
  dot_S1024x512_S512x8_S1024x8_1_0_0_1_n_n_wf : DotDims.WF S1024x512 S512x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S65536x8.size a
  hwx0_0 : ∀ i : grid0.Coords, EltTy.bits .f32 = 32 ∨ (Rect.block (s := S65536x8) S1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4x512.size a ≤ S65536x4x512.size a
  hwx0_1 : ∀ i : grid0.Coords, EltTy.bits .f32 = 32 ∨ (Rect.block (s := S65536x4x512) S1024x4x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x8.size a ≤ S32x8.size a
  hwx0_2 : ∀ i : grid0.Coords, EltTy.bits .f32 = 32 ∨ (Rect.block (s := S32x8) S32x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x32.size a ≤ S2x32.size a
  hwx0_9 : ∀ i : grid0.Coords, EltTy.bits .f32 = 32 ∨ (Rect.block (s := S2x32) S2x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2.size a ≤ S2.size a
  hwx0_10 : ∀ i : grid0.Coords, EltTy.bits .f32 = 32 ∨ (Rect.block (s := S2) S2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x64.size a ≤ S2x64.size a
  hwx0_11 : ∀ i : grid0.Coords, EltTy.bits .f32 = 32 ∨ (Rect.block (s := S2x64) S2x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x512.size a ≤ S4x512.size a
  hwx0_13 : ∀ i : grid0.Coords, EltTy.bits .f32 = 32 ∨ (Rect.block (s := S4x512) S4x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x64.size a ≤ S32x64.size a
  hwx0_14 : ∀ i : grid0.Coords, EltTy.bits .f32 = 32 ∨ (Rect.block (s := S32x64) S32x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S4.size a ≤ S4.size a
  hwx0_15 : ∀ i : grid0.Coords, EltTy.bits .f32 = 32 ∨ (Rect.block (s := S4) S4.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x8.size a ≤ S65536x8.size a
  hwx0_16 : ∀ i : grid0.Coords, EltTy.bits .f32 = 32 ∨ (Rect.block (s := S65536x8) S1024x8.size (cc0_transform_16 i) (hinb0_16 i)).WholeWords (EltTy.packing .f32)

variable [Facts₀]

def dot_S1024x8_S8x32_S1024x32_1_0_0_1_n_n : DotDims S1024x8 S8x32 S1024x32 where
  lhsContracting := [1]
  rhsContracting := [0]
  lhsNonContracting := [0]
  rhsNonContracting := [1]
  lhsBatch := []
  rhsBatch := []
  wf := dot_S1024x8_S8x32_S1024x32_1_0_0_1_n_n_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S2x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S2x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S4x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S32x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg19) S4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1024x8.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S65536x8 : Shape := ⟨2, ![65536, 8]⟩
abbrev S65536x4x8x16x4 : Shape := ⟨5, ![65536, 4, 8, 16, 4]⟩
abbrev S32x8 : Shape := ⟨2, ![32, 8]⟩
abbrev S32 : Shape := ⟨1, ![32]⟩
abbrev S64x32 : Shape := ⟨2, ![64, 32]⟩
abbrev S8x512 : Shape := ⟨2, ![8, 512]⟩
abbrev S8 : Shape := ⟨1, ![8]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x32 : Shape := ⟨2, ![1, 32]⟩
abbrev S4x8x64 : Shape := ⟨3, ![4, 8, 64]⟩
abbrev S4 : Shape := ⟨1, ![4]⟩
abbrev S8x32 : Shape := ⟨2, ![8, 32]⟩
abbrev S65536x32 : Shape := ⟨2, ![65536, 32]⟩
abbrev S32x1 : Shape := ⟨2, ![32, 1]⟩
abbrev S65536x1 : Shape := ⟨2, ![65536, 1]⟩
abbrev S1x1 : Shape := ⟨2, ![1, 1]⟩
abbrev S_ : Shape := ⟨0, ![]⟩
abbrev S32x64 : Shape := ⟨2, ![32, 64]⟩
abbrev S65536x64 : Shape := ⟨2, ![65536, 64]⟩
abbrev S64x1 : Shape := ⟨2, ![64, 1]⟩
abbrev S65536x4x8 : Shape := ⟨3, ![65536, 4, 8]⟩
abbrev S4x1 : Shape := ⟨2, ![4, 1]⟩
abbrev S1x4x1 : Shape := ⟨3, ![1, 4, 1]⟩
abbrev S65536x1x1 : Shape := ⟨3, ![65536, 1, 1]⟩
abbrev S65536x4x8x64 : Shape := ⟨4, ![65536, 4, 8, 64]⟩
abbrev S65536x1x1x64 : Shape := ⟨4, ![65536, 1, 1, 64]⟩
abbrev S1x4x8x64 : Shape := ⟨4, ![1, 4, 8, 64]⟩
abbrev S65536x4x8x1 : Shape := ⟨4, ![65536, 4, 8, 1]⟩
abbrev S65536x8x64 : Shape := ⟨3, ![65536, 8, 64]⟩
abbrev S65536x512 : Shape := ⟨2, ![65536, 512]⟩
abbrev S512x8 : Shape := ⟨2, ![512, 8]⟩
abbrev S1x8 : Shape := ⟨2, ![1, 8]⟩

abbrev nBuf : Space → Nat
  | .hbm => 137
  | .vmem => 0
  | .smem => 0
  | _ => 0

abbrev hbmTy0_0 (i : Nat) : BufTy := match i % 128 with
  | 0 => ⟨S65536x8, .f32⟩
  | 1 => ⟨S65536x4x8x16x4, .f32⟩
  | 2 => ⟨S32x8, .f32⟩
  | 3 => ⟨S32, .f32⟩
  | 4 => ⟨S64x32, .f32⟩
  | 5 => ⟨S8x512, .f32⟩
  | 6 => ⟨S8, .f32⟩
  | 7 => ⟨S64x64, .f32⟩
  | 8 => ⟨S64, .f32⟩
  | 9 => ⟨S1x64, .f32⟩
  | 10 => ⟨S1, .f32⟩
  | 11 => ⟨S1x64, .f32⟩
  | 12 => ⟨S1, .f32⟩
  | 13 => ⟨S1x32, .f32⟩
  | 14 => ⟨S1, .f32⟩
  | 15 => ⟨S1x32, .f32⟩
  | 16 => ⟨S1, .f32⟩
  | 17 => ⟨S4x8x64, .f32⟩
  | 18 => ⟨S4x8x64, .f32⟩
  | 19 => ⟨S4, .f32⟩
  | 20 => ⟨S8x32, .f32⟩
  | 21 => ⟨S65536x32, .f32⟩
  | 22 => ⟨S1x32, .f32⟩
  | 23 => ⟨S65536x32, .f32⟩
  | 24 => ⟨S65536x32, .f32⟩
  | 25 => ⟨S32x1, .f32⟩
  | 26 => ⟨S65536x1, .f32⟩
  | 27 => ⟨S1x1, .f32⟩
  | 28 => ⟨S65536x1, .f32⟩
  | 29 => ⟨S65536x1, .f32⟩
  | 30 => ⟨S65536x1, .f32⟩
  | 31 => ⟨S65536x1, .f32⟩
  | 32 => ⟨S_, .f32⟩
  | 33 => ⟨S65536x1, .f32⟩
  | 34 => ⟨S65536x1, .f32⟩
  | 35 => ⟨S_, .f32⟩
  | 36 => ⟨S65536x1, .f32⟩
  | 37 => ⟨S65536x1, .f32⟩
  | 38 => ⟨S32x1, .f32⟩
  | 39 => ⟨S65536x1, .f32⟩
  | 40 => ⟨S1x1, .f32⟩
  | 41 => ⟨S65536x1, .f32⟩
  | 42 => ⟨S65536x1, .f32⟩
  | 43 => ⟨S65536x1, .f32⟩
  | 44 => ⟨S65536x1, .f32⟩
  | 45 => ⟨S_, .f32⟩
  | 46 => ⟨S65536x1, .f32⟩
  | 47 => ⟨S65536x1, .f32⟩
  | 48 => ⟨S_, .f32⟩
  | 49 => ⟨S65536x1, .f32⟩
  | 50 => ⟨S65536x1, .f32⟩
  | 51 => ⟨S65536x1, .f32⟩
  | 52 => ⟨S32x64, .f32⟩
  | 53 => ⟨S65536x64, .f32⟩
  | 54 => ⟨S65536x64, .f32⟩
  | 55 => ⟨S64x64, .f32⟩
  | 56 => ⟨S65536x64, .f32⟩
  | 57 => ⟨S1x64, .f32⟩
  | 58 => ⟨S65536x64, .f32⟩
  | 59 => ⟨S65536x64, .f32⟩
  | 60 => ⟨S_, .f32⟩
  | 61 => ⟨S65536x64, .f32⟩
  | 62 => ⟨S65536x64, .f32⟩
  | 63 => ⟨S64x1, .f32⟩
  | 64 => ⟨S65536x1, .f32⟩
  | 65 => ⟨S1x1, .f32⟩
  | 66 => ⟨S65536x1, .f32⟩
  | 67 => ⟨S65536x1, .f32⟩
  | 68 => ⟨S65536x1, .f32⟩
  | 69 => ⟨S65536x1, .f32⟩
  | 70 => ⟨S_, .f32⟩
  | 71 => ⟨S65536x1, .f32⟩
  | 72 => ⟨S65536x1, .f32⟩
  | 73 => ⟨S_, .f32⟩
  | 74 => ⟨S65536x1, .f32⟩
  | 75 => ⟨S65536x1, .f32⟩
  | 76 => ⟨S64x1, .f32⟩
  | 77 => ⟨S65536x1, .f32⟩
  | 78 => ⟨S1x1, .f32⟩
  | 79 => ⟨S65536x1, .f32⟩
  | 80 => ⟨S65536x1, .f32⟩
  | 81 => ⟨S65536x1, .f32⟩
  | 82 => ⟨S65536x1, .f32⟩
  | 83 => ⟨S_, .f32⟩
  | 84 => ⟨S65536x1, .f32⟩
  | 85 => ⟨S65536x1, .f32⟩
  | 86 => ⟨S_, .f32⟩
  | 87 => ⟨S65536x1, .f32⟩
  | 88 => ⟨S65536x1, .f32⟩
  | 89 => ⟨S65536x4x8, .f32⟩
  | 90 => ⟨S4x1, .f32⟩
  | 91 => ⟨S1x4x1, .f32⟩
  | 92 => ⟨S65536x4x8, .f32⟩
  | 93 => ⟨S65536x4x8, .f32⟩
  | 94 => ⟨S65536x4x8, .f32⟩
  | 95 => ⟨S65536x4x8, .f32⟩
  | 96 => ⟨S_, .f32⟩
  | 97 => ⟨S65536x4x8, .f32⟩
  | 98 => ⟨S65536x4x8, .f32⟩
  | 99 => ⟨S_, .f32⟩
  | 100 => ⟨S65536x4x8, .f32⟩
  | 101 => ⟨S65536x4x8, .f32⟩
  | 102 => ⟨S65536x1, .f32⟩
  | 103 => ⟨S65536x1x1, .f32⟩
  | 104 => ⟨S65536x4x8, .f32⟩
  | 105 => ⟨S65536x4x8, .f32⟩
  | 106 => ⟨S4x8x64, .f32⟩
  | 107 => ⟨S4x8x64, .f32⟩
  | 108 => ⟨S_, .f32⟩
  | 109 => ⟨S4x8x64, .f32⟩
  | 110 => ⟨S4x8x64, .f32⟩
  | 111 => ⟨S_, .f32⟩
  | 112 => ⟨S4x8x64, .f32⟩
  | 113 => ⟨S4x8x64, .f32⟩
  | 114 => ⟨S65536x4x8x64, .f32⟩
  | 115 => ⟨S65536x64, .f32⟩
  | 116 => ⟨S65536x64, .f32⟩
  | 117 => ⟨S65536x1x1x64, .f32⟩
  | 118 => ⟨S1x4x8x64, .f32⟩
  | 119 => ⟨S65536x4x8x64, .f32⟩
  | 120 => ⟨S65536x4x8x64, .f32⟩
  | 121 => ⟨S65536x4x8x1, .f32⟩
  | 122 => ⟨S65536x4x8x64, .f32⟩
  | 123 => ⟨S65536x4x8x64, .f32⟩
  | 124 => ⟨S65536x4x8x64, .f32⟩
  | 125 => ⟨S65536x4x8x64, .f32⟩
  | 126 => ⟨S_, .f32⟩
  | 127 => ⟨S65536x8x64, .f32⟩
  | _ => ⟨S65536x8, .f32⟩

abbrev hbmTy0_1 (i : Nat) : BufTy := match i % 128 with
  | 0 => ⟨S_, .f32⟩
  | 1 => ⟨S65536x8x64, .f32⟩
  | 2 => ⟨S65536x8x64, .f32⟩
  | 3 => ⟨S65536x512, .f32⟩
  | 4 => ⟨S512x8, .f32⟩
  | 5 => ⟨S65536x8, .f32⟩
  | 6 => ⟨S1x8, .f32⟩
  | 7 => ⟨S65536x8, .f32⟩
  | 8 => ⟨S65536x8, .f32⟩
  | _ => ⟨S65536x8, .f32⟩

abbrev hbmTy (i : Nat) : BufTy := match i / 128 with
  | 0 => hbmTy0_0 i
  | 1 => hbmTy0_1 i
  | _ => ⟨S65536x8, .f32⟩

abbrev bufTy : (tb : Table) → Fin (tcTables nBuf tb) → BufTy
  | .hbm, ⟨i, _⟩ => hbmTy i
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call0_cst : Ref sig .tc := ⟨.hbm, 60, rfl⟩
abbrev main_call0_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_9 : Ref sig .tc := ⟨.hbm, 108, rfl⟩
abbrev main_v76 : Ref sig .tc := ⟨.hbm, 109, rfl⟩
abbrev main_v77 : Ref sig .tc := ⟨.hbm, 110, rfl⟩
abbrev main_cst_10 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_11 : Ref sig .tc := ⟨.hbm, 126, rfl⟩
abbrev main_v92 : Ref sig .tc := ⟨.hbm, 127, rfl⟩
abbrev main_cst_12 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  transposes_S32x8_S8x32_1_0 : S32x8.Transposes [1, 0] S8x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  transposes_S1x32_S32x1_1_0 : S1x32.Transposes [1, 0] S32x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  transposes_S64x32_S32x64_1_0 : S64x32.Transposes [1, 0] S32x64
  transposes_S64x64_S64x64_1_0 : S64x64.Transposes [1, 0] S64x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S1x64_S64x1_1_0 : S1x64.Transposes [1, 0] S64x1
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S1x4x1_S65536x4x8_0_1_2 : S1x4x1.BroadcastsInDim S65536x4x8 (![0, 1, 2] : Fin 3 → Fin S65536x4x8.rank)
  bcast_S_S65536x4x8 : S_.BroadcastsInDim S65536x4x8 (![] : Fin 0 → Fin S65536x4x8.rank)
  bcast_S65536x1_S65536x1x1_0_1 : S65536x1.BroadcastsInDim S65536x1x1 (![0, 1] : Fin 2 → Fin S65536x1x1.rank)
  bcast_S65536x1x1_S65536x4x8_0_1_2 : S65536x1x1.BroadcastsInDim S65536x4x8 (![0, 1, 2] : Fin 3 → Fin S65536x4x8.rank)
  bcast_S_S4x8x64 : S_.BroadcastsInDim S4x8x64 (![] : Fin 0 → Fin S4x8x64.rank)
  shapeCasts_S65536x4x8x16x4_S65536x4x8x64 : S65536x4x8x16x4.ShapeCasts S65536x4x8x64
  bcast_S65536x1_S65536x64_0_1 : S65536x1.BroadcastsInDim S65536x64 (![0, 1] : Fin 2 → Fin S65536x64.rank)
  bcast_S65536x64_S65536x1x1x64_0_3 : S65536x64.BroadcastsInDim S65536x1x1x64 (![0, 3] : Fin 2 → Fin S65536x1x1x64.rank)
  bcast_S4x8x64_S1x4x8x64_1_2_3 : S4x8x64.BroadcastsInDim S1x4x8x64 (![1, 2, 3] : Fin 3 → Fin S1x4x8x64.rank)
  bcast_S1x4x8x64_S65536x4x8x64_0_1_2_3 : S1x4x8x64.BroadcastsInDim S65536x4x8x64 (![0, 1, 2, 3] : Fin 4 → Fin S65536x4x8x64.rank)
  bcast_S65536x4x8_S65536x4x8x1_0_1_2 : S65536x4x8.BroadcastsInDim S65536x4x8x1 (![0, 1, 2] : Fin 3 → Fin S65536x4x8x1.rank)
  bcast_S65536x4x8x1_S65536x4x8x64_0_1_2_3 : S65536x4x8x1.BroadcastsInDim S65536x4x8x64 (![0, 1, 2, 3] : Fin 4 → Fin S65536x4x8x64.rank)
  bcast_S65536x1x1x64_S65536x4x8x64_0_1_2_3 : S65536x1x1x64.BroadcastsInDim S65536x4x8x64 (![0, 1, 2, 3] : Fin 4 → Fin S65536x4x8x64.rank)
  reducesTo_S65536x4x8x64_S65536x8x64_d1 : S65536x4x8x64.ReducesTo [1] S65536x8x64
  h_S_ : 0 < S_.numel
  bcast_S_S65536x8x64 : S_.BroadcastsInDim S65536x8x64 (![] : Fin 0 → Fin S65536x8x64.rank)
  shapeCasts_S65536x8x64_S65536x512 : S65536x8x64.ShapeCasts S65536x512
  transposes_S8x512_S512x8_1_0 : S8x512.Transposes [1, 0] S512x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  dot_S65536x8_S8x32_S65536x32_1_0_0_1_n_n_wf : DotDims.WF S65536x8 S8x32 S65536x32 [1] [0] [0] [1] [] []
  dot_S65536x32_S32x1_S65536x1_1_0_0_1_n_n_wf : DotDims.WF S65536x32 S32x1 S65536x1 [1] [0] [0] [1] [] []
  dot_S65536x32_S32x64_S65536x64_1_0_0_1_n_n_wf : DotDims.WF S65536x32 S32x64 S65536x64 [1] [0] [0] [1] [] []
  dot_S65536x64_S64x64_S65536x64_1_0_0_1_n_n_wf : DotDims.WF S65536x64 S64x64 S65536x64 [1] [0] [0] [1] [] []
  dot_S65536x64_S64x1_S65536x1_1_0_0_1_n_n_wf : DotDims.WF S65536x64 S64x1 S65536x1 [1] [0] [0] [1] [] []
  dot_S65536x64_S4x8x64_S65536x4x8_1_2_0_01_n_n_wf : DotDims.WF S65536x64 S4x8x64 S65536x4x8 [1] [2] [0] [0, 1] [] []
  dot_S65536x512_S512x8_S65536x8_1_0_0_1_n_n_wf : DotDims.WF S65536x512 S512x8 S65536x8 [1] [0] [0] [1] [] []

variable [Facts₀]

def dot_S65536x8_S8x32_S65536x32_1_0_0_1_n_n : DotDims S65536x8 S8x32 S65536x32 where
  lhsContracting := [1]
  rhsContracting := [0]
  lhsNonContracting := [0]
  rhsNonContracting := [1]
  lhsBatch := []
  rhsBatch := []
  wf := dot_S65536x8_S8x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def dot_S65536x64_S4x8x64_S65536x4x8_1_2_0_01_n_n : DotDims S65536x64 S4x8x64 S65536x4x8 where
  lhsContracting := [1]
  rhsContracting := [2]
  lhsNonContracting := [0]
  rhsNonContracting := [0, 1]
  lhsBatch := []
  rhsBatch := []
  wf := dot_S65536x64_S4x8x64_S65536x4x8_1_2_0_01_n_n_wf
def dot_S65536x512_S512x8_S65536x8_1_0_0_1_n_n : DotDims S65536x512 S512x8 S65536x8 where
  lhsContracting := [1]
  rhsContracting := [0]
  lhsNonContracting := [0]
  rhsNonContracting := [1]
  lhsBatch := []
  rhsBatch := []
  wf := dot_S65536x512_S512x8_S65536x8_1_0_0_1_n_n_wf

class Facts : Prop extends Facts₀ where

variable [Facts]
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibFoldRows.lean ====
/-
  LAYOUT OPERATIONS OF A ROW-FOLDED BLOCK, READ AT AN INDEX — generic in the extents; nothing here depends on a program.

  A kernel that applies one matrix to every row of a stack [a, c, b] folds the two leading axes into one
  ([a, c, b] → [a·c, b]), multiplies, and unfolds the product ([a·c, n] → [a, c, n]). Row-major order makes row
  (r, q) of the stack row  r·c + q  of the folded matrix. Before the fold such a kernel often builds the stack
  from two smaller blocks by broadcasting: a [a, b] block along a new middle axis ([a, b] → [a, 1, b] → [a, c, b])
  and a [c, b] block along a new leading axis ([c, b] → [1, c, b] → [a, c, b]).

  * `shapeCast_fold_apply`    — [a, c, b] → [M, b]  with M = a·c, at (p, d) where p = r·c + q;
  * `shapeCast_unfold_apply`  — [M, n] → [a, c, n]  with M = a·c, at (r, q, v);
  * `shapeCast_ab_a1b_apply`  — [a, b] → [a, 1, b]  at (r, u, d);
  * `broadcastTo_a1b_acb_apply` — [a, 1, b] → [a, c, b]  at (r, q, d): the operand at (r, 0, d);
  * `broadcastTo_1cb_acb_apply` — [1, c, b] → [a, c, b]  at (r, q, d): the operand at (0, q, d);
  * `foldRow`, `foldRow_val`  — the folded row number r·c + q as an element of Fin M.
-/
import Idealize.ShloMosaic.Lib.ValueIdx
import Idealize.ShloMosaic.Lib.ValueLayout
import Idealize.ShloMosaic.Lib.Pipeline.Value

noncomputable section

namespace Cert.Lib.FoldRows

open Idealize.ShloMosaic Idealize.ShloMosaic.ValueIdx

variable {α : Type}

/-- Row (r, q) of a stack of `a` blocks of `c` rows is row r·c + q of the stack folded into M = a·c rows. -/
def foldRow {a c M : ℕ} (hM : M = a * c) (r : Fin a) (q : Fin c) : Fin M :=
  ⟨r.val * c + q.val, by
    have hr := r.isLt
    have hq := q.isLt
    have : r.val * c + q.val < a * c := by
      calc r.val * c + q.val < r.val * c + c := by omega
        _ = (r.val + 1) * c := by ring
        _ ≤ a * c := Nat.mul_le_mul_right c hr
    omega⟩

@[simp] theorem foldRow_val {a c M : ℕ} (hM : M = a * c) (r : Fin a) (q : Fin c) :
    (foldRow hM r q).val = r.val * c + q.val := rfl

/-- A stack [a, c, b] folded into [M, b], M = a·c, reads at (p, d), with p the folded number of row (r, q), the stack
    at (r, q, d). -/
theorem shapeCast_fold_apply {a c b M : ℕ} (x : (⟨3, ![a, c, b]⟩ : Shape).Idx → α)
    (h : (⟨3, ![a, c, b]⟩ : Shape).ShapeCasts ⟨2, ![M, b]⟩) (r : Fin a) (q : Fin c) (d : Fin b) (p : Fin M)
    (hp : p.val = r.val * c + q.val) :
    shapeCast ⟨2, ![M, b]⟩ x h (ix2 p d) = x (ix3 r q d) :=
  shapeCast_apply x h _ _ (by
    rw [Shape.rowMajor_val_three, Shape.rowMajor_val_two]
    show (r.val * c + q.val) * b + d.val = p.val * b + d.val
    rw [hp])

/-- A matrix [M, n], M = a·c, unfolded into the stack [a, c, n] reads at (r, q, v) the matrix at (p, v), with p the
    folded number of row (r, q). -/
theorem shapeCast_unfold_apply {a c n M : ℕ} (x : (⟨2, ![M, n]⟩ : Shape).Idx → α)
    (h : (⟨2, ![M, n]⟩ : Shape).ShapeCasts ⟨3, ![a, c, n]⟩) (r : Fin a) (q : Fin c) (v : Fin n) (p : Fin M)
    (hp : p.val = r.val * c + q.val) :
    shapeCast ⟨3, ![a, c, n]⟩ x h (ix3 r q v) = x (ix2 p v) :=
  shapeCast_apply x h _ _ (by
    rw [Shape.rowMajor_val_three, Shape.rowMajor_val_two]
    show p.val * n + v.val = (r.val * c + q.val) * n + v.val
    rw [hp])

/-- A block [a, b] given a unit middle axis, [a, 1, b], reads at (r, u, d) the block at (r, d). -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- A block [a, 1, b] broadcast along its unit middle axis to [a, c, b] reads at (r, q, d) the block at (r, 0, d). -/
theorem broadcastTo_a1b_acb_apply {a c b : ℕ} (x : (⟨3, ![a, 1, b]⟩ : Shape).Idx → α)
    (h : (⟨3, ![a, 1, b]⟩ : Shape).Broadcasts ⟨3, ![a, c, b]⟩) (r : Fin a) (q : Fin c) (d : Fin b) :
    broadcastTo ⟨3, ![a, c, b]⟩ x h (ix3 r q d) = x (ix3 r (0 : Fin 1) d) := by
  refine broadcastTo_apply x h (ix3 r q d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if b = 1 then 0 else d.val
    split
    · have := d.isLt; omega
    · rfl

/-- A block [1, c, b] broadcast along its unit leading axis to [a, c, b] reads at (r, q, d) the block at (0, q, d). -/
theorem broadcastTo_1cb_acb_apply {a c b : ℕ} (x : (⟨3, ![1, c, b]⟩ : Shape).Idx → α)
    (h : (⟨3, ![1, c, b]⟩ : Shape).Broadcasts ⟨3, ![a, c, b]⟩) (r : Fin a) (q : Fin c) (d : Fin b) :
    broadcastTo ⟨3, ![a, c, b]⟩ x h (ix3 r q d) = x (ix3 (0 : Fin 1) q d) := by
  refine broadcastTo_apply x h (ix3 r q d) (ix3 (0 : Fin 1) q d) fun ax => ?_
  match ax with
  | ⟨0, _⟩ => rfl
  | ⟨1, _⟩ =>
    show q.val = if c = 1 then 0 else q.val
    split
    · have := q.isLt; omega
    · rfl
  | ⟨2, _⟩ =>
    show d.val = if b = 1 then 0 else d.val
    split
    · have := d.isLt; omega
    · rfl

end Cert.Lib.FoldRows

end
-- ==== Proof.LibRowOps.lean ====
/-
  ROW OPERATIONS OF A KERNEL BODY READ AT AN INDEX, on the extended reals. Generic in the extents where that costs
  nothing; nothing here depends on a program.

  * a product with the weights stored transposed:  (x · Wᵀ)(y, j) = Σ_k x(y,k)·W(j,k)  for a matmul into the zero
    accumulator whose right operand is the transpose of W;
  * a bias vector [n] seen as the row [1, n] and spread over the rows of [a, n];
  * one column of a two-column array;
  * sums along the middle axis of a rank-3 array;
  * the re-layings between [a, 32] and [a, 4, 8], between [a, 8, 64] and [a, 512], and the unit-axis casts and
    broadcasts that build [a, 4, 8] and [a, 8, 64] arrays from vectors and columns.
-/
import Idealize.ShloMosaic.Lib.ValueIdx
import Idealize.ShloMosaic.Lib.ValueLayout
import Idealize.ShloMosaic.Lib.Pipeline.Value
import Idealize.ShloMosaic.PureOps.Ideal.Laws
import proofs.«162835_j32899449488193_2_alg».proof.Proof.LibPlainDot
import proofs.«162835_j32899449488193_2_alg».proof.Proof.LibKeepdims
import proofs.«162835_j32899449488193_2_alg».proof.Proof.LibFoldRows

noncomputable section

open scoped BigOperators

namespace Cert.Lib.RowOps

open Idealize.ShloMosaic Idealize.ShloMosaic.ValueIdx

variable {α : Type}

/-- (x · Wᵀ)(y, j) = Σ_k x(y,k)·W(j,k): a matmul into the zero accumulator whose right operand is W transposed. -/
theorem dotT_apply {A K N : ℕ} {φ₁ φ₂ : FTy} (d : DotDims ⟨2, ![A, K]⟩ ⟨2, ![K, N]⟩ ⟨2, ![A, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ φ₁) (W : FVec Ideal ⟨2, ![N, K]⟩ φ₂)
    (ht : (⟨2, ![N, K]⟩ : Shape).Transposes [1, 0] ⟨2, ![K, N]⟩) (y : Fin A) (j : Fin N) :
    matmul d none x (transpose ⟨2, ![K, N]⟩ [1, 0] W ht) (constant ⟨2, ![A, N]⟩ .f32 0x00000000#32) (ix2 y j)
      = ∑ k : Fin K, x (ix2 y k) * W (ix2 j k) := by
  obtain rfl := Cert.Lib.PlainDot.eq_plain d h1 h2 h3 h4 h5 h6
  refine (Cert.Lib.PlainDot.matmul_zero_plain_apply none x _ (ix2 y j)).trans ?_
  exact Finset.sum_congr rfl fun k _ => congrArg (x (ix2 y k) * ·) (transpose_ix2_apply W ht k j)

/-- A vector [n] seen as the row [1, n] and spread over the rows of [a, n]. -/
theorem biasRow_apply {a n : ℕ} (b : (⟨1, ![n]⟩ : Shape).Idx → α) (hc : (⟨1, ![n]⟩ : Shape).ShapeCasts ⟨2, ![1, n]⟩)
    (hb : (⟨2, ![1, n]⟩ : Shape).Broadcasts ⟨2, ![a, n]⟩) (y : Fin a) (j : Fin n) :
    broadcastTo ⟨2, ![a, n]⟩ (shapeCast ⟨2, ![1, n]⟩ b hc) hb (ix2 y j) = b (ix1 j) :=
  (broadcastTo_1b_ab_apply _ hb y j).trans (shapeCast_a_1a_apply b hc 0 j)

/-- Column o of a two-column array, as an [a, 1] column. -/
theorem col_apply {a : ℕ} (o : ℕ) (ho : o < 2) (v : (⟨2, ![a, 2]⟩ : Shape).Idx → α)
    (h : (⟨2, ![a, 2]⟩ : Shape).Slices ![0, o] ⟨2, ![a, 1]⟩) (y : Fin a) (u : Fin 1) :
    extractStridedSlice ⟨2, ![a, 1]⟩ ![0, o] v h (ix2 y u) = v (ix2 y ⟨o, ho⟩) :=
  slice2_axis1_apply o v h y u ⟨o, ho⟩ (by have := u.isLt; show o = o + u.val; omega)

/-- Columns 0 and 1 of a two-column array. -/
theorem col0_apply {a : ℕ} (v : (⟨2, ![a, 2]⟩ : Shape).Idx → α)
    (h : (⟨2, ![a, 2]⟩ : Shape).Slices ![0, 0] ⟨2, ![a, 1]⟩) (y : Fin a) (u : Fin 1) :
    extractStridedSlice ⟨2, ![a, 1]⟩ ![0, 0] v h (ix2 y u) = v (ix2 y (0 : Fin 2)) :=
  slice2_axis1_apply 0 v h y u 0 (by have := u.isLt; show 0 = 0 + u.val; omega)

theorem col1_apply {a : ℕ} (v : (⟨2, ![a, 2]⟩ : Shape).Idx → α)
    (h : (⟨2, ![a, 2]⟩ : Shape).Slices ![0, 1] ⟨2, ![a, 1]⟩) (y : Fin a) (u : Fin 1) :
    extractStridedSlice ⟨2, ![a, 1]⟩ ![0, 1] v h (ix2 y u) = v (ix2 y (1 : Fin 2)) :=
  slice2_axis1_apply 1 v h y u 1 (by have := u.isLt; show 1 = 1 + u.val; omega)

/-- The sum along the middle axis of an [A, L, B] array at (y, r). -/
theorem sumMid_apply {A L B : ℕ} (src : FVec Ideal ⟨3, ![A, L, B]⟩ .f32)
    (h : (⟨3, ![A, L, B]⟩ : Shape).Reduces [1] ⟨2, ![A, B]⟩) (y : Fin A) (r : Fin B) :
    multiReduction .add [1] ⟨2, ![A, B]⟩ src 0x00000000#32 h (.inl rfl) rfl (ix2 y r) = ∑ l : Fin L, src (ix3 y l r) := by
  refine (Ideal.multiReduction_add_single src 0x00000000#32 h (.inl rfl) rfl (ix2 y r)).trans ?_
  refine Finset.sum_congr rfl fun l _ => congrArg src (funext fun a => Fin.ext ?_)
  match a with
  | ⟨0, _⟩ => rfl
  | ⟨1, _⟩ => rfl
  | ⟨2, _⟩ => rfl

/-- [a, 32] re-laid as [a, 4, 8]: entry (y, l, r) is entry (y, 8l + r). -/
theorem cast_a32_a48_apply {a : ℕ} (x : (⟨2, ![a, 32]⟩ : Shape).Idx → α)
    (h : (⟨2, ![a, 32]⟩ : Shape).ShapeCasts ⟨3, ![a, 4, 8]⟩) (y : Fin a) (l : Fin 4) (r : Fin 8) (p : Fin 32)
    (hp : p.val = l.val * 8 + r.val) :
    shapeCast ⟨3, ![a, 4, 8]⟩ x h (ix3 y l r) = x (ix2 y p) :=
  shapeCast_apply x h _ _ (by
    rw [Shape.rowMajor_val_three, Shape.rowMajor_val_two]
    show y.val * 32 + p.val = (y.val * 4 + l.val) * 8 + r.val
    omega)

/-- [a, 8, 64] re-laid as [a, 512]: entry (y, j) is entry (y, j / 64, j mod 64). -/
theorem cast_a8x64_a512_apply {a : ℕ} (x : (⟨3, ![a, 8, 64]⟩ : Shape).Idx → α)
    (h : (⟨3, ![a, 8, 64]⟩ : Shape).ShapeCasts ⟨2, ![a, 512]⟩) (y : Fin a) (j : Fin 512) (r : Fin 8) (m : Fin 64)
    (hj : j.val = r.val * 64 + m.val) :
    shapeCast ⟨2, ![a, 512]⟩ x h (ix2 y j) = x (ix3 y r m) :=
  shapeCast_apply x h _ _ (by
    rw [Shape.rowMajor_val_three, Shape.rowMajor_val_two]
    show (y.val * 8 + r.val) * 64 + m.val = y.val * 512 + j.val
    omega)

/-- A vector [c] as [1, c, 1], spread over [a, c, b]: entry (y, l, r) is entry l. -/
theorem vec_1c1_acb_apply {a c b : ℕ} (v : (⟨1, ![c]⟩ : Shape).Idx → α) (hc : (⟨1, ![c]⟩ : Shape).ShapeCasts ⟨3, ![1, c, 1]⟩)
    (hb : (⟨3, ![1, c, 1]⟩ : Shape).Broadcasts ⟨3, ![a, c, b]⟩) (y : Fin a) (l : Fin c) (r : Fin b) :
    broadcastTo ⟨3, ![a, c, b]⟩ (shapeCast ⟨3, ![1, c, 1]⟩ v hc) hb (ix3 y l r) = v (ix1 l) := by
  refine (broadcastTo_apply _ hb (ix3 y l r) (ix3 (0 : Fin 1) l (0 : Fin 1)) fun ax => ?_).trans ?_
  · match ax with
    | ⟨0, _⟩ => rfl
    | ⟨1, _⟩ =>
      show l.val = if c = 1 then 0 else l.val
      split
      · have := l.isLt; omega
      · rfl
    | ⟨2, _⟩ => rfl
  · exact shapeCast_apply v hc _ _ (by
      rw [Shape.rowMajor_val_three, Shape.rowMajor_val_one]
      show l.val = (0 * c + l.val) * 1 + 0
      omega)

/-- A column [a, 1] as [a, 1, 1], spread over [a, c, b]: entry (y, l, r) is the column's entry y. -/
theorem col_a11_acb_apply {a c b : ℕ} (v : (⟨2, ![a, 1]⟩ : Shape).Idx → α) (hc : (⟨2, ![a, 1]⟩ : Shape).ShapeCasts ⟨3, ![a, 1, 1]⟩)
    (hb : (⟨3, ![a, 1, 1]⟩ : Shape).Broadcasts ⟨3, ![a, c, b]⟩) (y : Fin a) (l : Fin c) (r : Fin b) :
    broadcastTo ⟨3, ![a, c, b]⟩ (shapeCast ⟨3, ![a, 1, 1]⟩ v hc) hb (ix3 y l r) = v (ix2 y (0 : Fin 1)) := by
  refine (broadcastTo_apply _ hb (ix3 y l r) (ix3 y (0 : Fin 1) (0 : Fin 1)) fun ax => ?_).trans ?_
  · match ax with
    | ⟨0, _⟩ =>
      show y.val = if a = 1 then 0 else y.val
      split
      · have := y.isLt; omega
      · rfl
    | ⟨1, _⟩ => rfl
    | ⟨2, _⟩ => rfl
  · exact shapeCast_apply v hc _ _ (by
      rw [Shape.rowMajor_val_three, Shape.rowMajor_val_two]
      show y.val * 1 + 0 = (y.val * 1 + 0) * 1 + 0
      omega)

/-- An [a, c] array as [a, c, 1], spread over [a, c, b]: entry (y, r, m) is entry (y, r). -/
theorem mat_ac1_acb_apply {a c b : ℕ} (v : (⟨2, ![a, c]⟩ : Shape).Idx → α) (hc : (⟨2, ![a, c]⟩ : Shape).ShapeCasts ⟨3, ![a, c, 1]⟩)
    (hb : (⟨3, ![a, c, 1]⟩ : Shape).Broadcasts ⟨3, ![a, c, b]⟩) (y : Fin a) (r : Fin c) (m : Fin b) :
    broadcastTo ⟨3, ![a, c, b]⟩ (shapeCast ⟨3, ![a, c, 1]⟩ v hc) hb (ix3 y r m) = v (ix2 y r) := by
  refine (broadcastTo_apply _ hb (ix3 y r m) (ix3 y r (0 : Fin 1)) fun ax => ?_).trans ?_
  · match ax with
    | ⟨0, _⟩ =>
      show y.val = if a = 1 then 0 else y.val
      split
      · have := y.isLt; omega
      · rfl
    | ⟨1, _⟩ =>
      show r.val = if c = 1 then 0 else r.val
      split
      · have := r.isLt; omega
      · rfl
    | ⟨2, _⟩ => rfl
  · exact shapeCast_apply v hc _ _ (by
      rw [Shape.rowMajor_val_three, Shape.rowMajor_val_two]
      show y.val * c + r.val = (y.val * c + r.val) * 1 + 0
      omega)

/-- An [a, b] array as [a, 1, b], spread over [a, c, b]: entry (y, r, m) is entry (y, m). -/
theorem mat_a1b_acb_apply {a c b : ℕ} (v : (⟨2, ![a, b]⟩ : Shape).Idx → α) (hc : (⟨2, ![a, b]⟩ : Shape).ShapeCasts ⟨3, ![a, 1, b]⟩)
    (hb : (⟨3, ![a, 1, b]⟩ : Shape).Broadcasts ⟨3, ![a, c, b]⟩) (y : Fin a) (r : Fin c) (m : Fin b) :
    broadcastTo ⟨3, ![a, c, b]⟩ (shapeCast ⟨3, ![a, 1, b]⟩ v hc) hb (ix3 y r m) = v (ix2 y m) :=
  (Cert.Lib.FoldRows.broadcastTo_a1b_acb_apply _ hb y r m).trans (Cert.Lib.FoldRows.shapeCast_ab_a1b_apply v hc y 0 m)

/-- A [c, b] array as [1, c, b], spread over [a, c, b]: entry (y, l, j) is entry (l, j). -/
theorem mat_1cb_acb_apply {a c b : ℕ} (v : (⟨2, ![c, b]⟩ : Shape).Idx → α) (hc : (⟨2, ![c, b]⟩ : Shape).ShapeCasts ⟨3, ![1, c, b]⟩)
    (hb : (⟨3, ![1, c, b]⟩ : Shape).Broadcasts ⟨3, ![a, c, b]⟩) (y : Fin a) (l : Fin c) (j : Fin b) :
    broadcastTo ⟨3, ![a, c, b]⟩ (shapeCast ⟨3, ![1, c, b]⟩ v hc) hb (ix3 y l j) = v (ix2 l j) :=
  (Cert.Lib.FoldRows.broadcastTo_1cb_acb_apply _ hb y l j).trans (shapeCast_ab_1ab_apply v hc 0 l j)

end Cert.Lib.RowOps

end
-- ==== Proof.Spec.lean ====
/-
  The mathematics of one batch row of the gated memory read-out, on the extended reals.

  For a row x (8 entries) and its memory slab H (4 layers × 8 slots × 64 features):
    s1   = x·W_bitᵀ + b_bit                      (32 entries)
    sur  = σ(s1·w_sur + b_sur) · σ(s1·w_gate + b_gate)
    s2   = tanh(s1·W_bridgeᵀ)                    (64 entries)
    hg   = max(s2·W_shᵀ + b_sh, 0)
    eng  = σ(hg·w_eng + b_eng),  imp = σ(hg·w_imp + b_imp)
    halt(l,r) = σ(Σ_m s2(m)·hw(l,r,m) + hb(l)),  gate(l,r) = halt(l,r)·(eng·imp)
    wr(m) = sur·s2(m)
  and the read vector, of which there are two arrangements:
    readR(r,m) = ( Σ_l ( H(l,r,m)·σ(dec(l,r,m)) + gate(l,r)·wr(m) ) ) / 4          (mean over the layers of the new slab)
    readK(r,m) = Σ_l H(l,r,m)·(σ(dec(l,r,m))/4)  +  wr(m)·( (Σ_l gate(l,r)) / 4 )    (the write term taken out of the mean)
  followed by  out(o) = Σ_j read(j / 64, j mod 64)·W_read(o, j) + b_read(o).

  σ and tanh take every extended real to a real number, so gate, wr and σ(dec) are always real; when the entries of H
  are real as well, both arrangements are the same real number (division by 4 distributes over a finite real sum, and a
  real factor moves across it): readK = readR, hence the two read-outs agree.
-/
import Idealize.ShloMosaic.PureOps.Ideal
import Idealize.ShloMosaic.PureOps.Ideal.Laws
import Idealize.ShloMosaic.Lib.ValueIdx

noncomputable section

open scoped BigOperators

namespace Cert.Mem

open Idealize.ShloMosaic

/-! ## Constants and index arithmetic -/

/-- The word of 4.0 denotes the real 4. -/
theorem four_eq : Ideal.ofBits .f32 0x40800000#32 = ((4 : ℝ) : EReal) := by
  simp [Ideal.ofBits, Ideal.ieee, -EReal.coe_mul]; norm_num

/-- The word of 1.0 denotes 1. -/
theorem one_eq : Ideal.ofBits .f32 0x3F800000#32 = 1 := by
  simp [Ideal.ofBits, Ideal.ieee, -EReal.coe_mul]; norm_num

/-- The divisor 4.0 and the zero a sum starts from, as the programs spell them. -/
abbrev four : EReal := Ideal.ofBits .f32 0x40800000#32
abbrev zeroW : EReal := Ideal.ofBits .f32 0x00000000#32

/-- Slot and feature of a position in the flattened 8 × 64 read vector. -/
def r64 (j : Fin 512) : Fin 8 := ⟨j.val / 64, by have := j.isLt; omega⟩
def m64 (j : Fin 512) : Fin 64 := ⟨j.val % 64, by omega⟩
/-- Position of (slot, feature) in the flattened read vector. -/
def f512 (r : Fin 8) (m : Fin 64) : Fin 512 := ⟨r.val * 64 + m.val, by have := r.isLt; have := m.isLt; omega⟩
/-- Position of (layer, slot) among the 32 halting rows. -/
def f32 (l : Fin 4) (r : Fin 8) : Fin 32 := ⟨l.val * 8 + r.val, by have := l.isLt; have := r.isLt; omega⟩
/-- A feature 0..63 as (d, c) with 16 × 4 = 64. -/
def d16 (m : Fin 64) : Fin 16 := ⟨m.val / 4, by have := m.isLt; omega⟩
def c4 (m : Fin 64) : Fin 4 := ⟨m.val % 4, by omega⟩

theorem f512_r64_m64 (j : Fin 512) : f512 (r64 j) (m64 j) = j :=
  Fin.ext (by show j.val / 64 * 64 + j.val % 64 = j.val; omega)

/-! ## The weights, and the stages of one row -/

structure Wts where
  Wbit : Fin 32 → Fin 8 → EReal
  bbit : Fin 32 → EReal
  Wbr : Fin 64 → Fin 32 → EReal
  Wread : Fin 8 → Fin 512 → EReal
  bread : Fin 8 → EReal
  Wsh : Fin 64 → Fin 64 → EReal
  bsh : Fin 64 → EReal
  Weng : Fin 64 → EReal
  beng : EReal
  Wimp : Fin 64 → EReal
  bimp : EReal
  Wsur : Fin 32 → EReal
  bsur : EReal
  Wgate : Fin 32 → EReal
  bgate : EReal
  /-- the decay logits -/
  dec : Fin 4 → Fin 8 → Fin 64 → EReal
  /-- the decay gates already divided by the number of layers -/
  dd : Fin 4 → Fin 8 → Fin 64 → EReal
  hw : Fin 4 → Fin 8 → Fin 64 → EReal
  hb : Fin 4 → EReal

variable (W : Wts) (x : Fin 8 → EReal) (H : Fin 4 → Fin 8 → Fin 64 → EReal)

def s1 (j : Fin 32) : EReal := (∑ k : Fin 8, x k * W.Wbit j k) + W.bbit j
def sur : EReal :=
  Ideal.logistic ((∑ j : Fin 32, s1 W x j * W.Wsur j) + W.bsur) * Ideal.logistic ((∑ j : Fin 32, s1 W x j * W.Wgate j) + W.bgate)
def s2 (m : Fin 64) : EReal := Ideal.tanh (∑ j : Fin 32, s1 W x j * W.Wbr m j)
def hg (n : Fin 64) : EReal := max ((∑ m : Fin 64, s2 W x m * W.Wsh n m) + W.bsh n) zeroW
def eng : EReal := Ideal.logistic ((∑ n : Fin 64, hg W x n * W.Weng n) + W.beng)
def imp : EReal := Ideal.logistic ((∑ n : Fin 64, hg W x n * W.Wimp n) + W.bimp)
def halt (l : Fin 4) (r : Fin 8) : EReal := Ideal.logistic ((∑ m : Fin 64, s2 W x m * W.hw l r m) + W.hb l)
def gate (l : Fin 4) (r : Fin 8) : EReal := halt W x l r * (eng W x * imp W x)
def wr (m : Fin 64) : EReal := sur W x * s2 W x m

/-- The read vector as the mean over the layers of the updated slab. -/
def readR (r : Fin 8) (m : Fin 64) : EReal :=
  Ideal.div (zeroW + ∑ l : Fin 4, (H l r m * Ideal.logistic (W.dec l r m) + gate W x l r * wr W x m)) four
/-- The read vector with the write term taken out of the mean. -/
def readK (r : Fin 8) (m : Fin 64) : EReal :=
  (∑ l : Fin 4, H l r m * W.dd l r m) + wr W x m * Ideal.div (∑ l : Fin 4, gate W x l r) four

/-- The read-out of a read vector. -/
def outOf (read : Fin 8 → Fin 64 → EReal) (o : Fin 8) : EReal :=
  (∑ j : Fin 512, read (r64 j) (m64 j) * W.Wread o j) + W.bread o

def outR (o : Fin 8) : EReal := outOf W (readR W x H) o
def outK (o : Fin 8) : EReal := outOf W (readK W x H) o

/-! ## σ and tanh are real-valued -/

theorem logistic_real (v : EReal) : ∃ r : ℝ, Ideal.logistic v = (r : EReal) := by
  induction v using EReal.rec with
  | bot => exact ⟨0, by rw [Ideal.logistic_bot]; rfl⟩
  | coe r => exact ⟨_, Ideal.logistic_coe r⟩
  | top => exact ⟨1, by rw [Ideal.logistic_top]; rfl⟩

theorem tanh_real (v : EReal) : ∃ r : ℝ, Ideal.tanh v = (r : EReal) := by
  induction v using EReal.rec with
  | bot => exact ⟨-1, by rw [Ideal.tanh_bot]; rfl⟩
  | coe r => exact ⟨_, Ideal.tanh_coe r⟩
  | top => exact ⟨1, by rw [Ideal.tanh_top]; rfl⟩

theorem gate_real (l : Fin 4) (r : Fin 8) : ∃ g : ℝ, gate W x l r = (g : EReal) := by
  obtain ⟨a, ha⟩ := logistic_real ((∑ m : Fin 64, s2 W x m * W.hw l r m) + W.hb l)
  obtain ⟨b, hb⟩ := logistic_real ((∑ n : Fin 64, hg W x n * W.Weng n) + W.beng)
  obtain ⟨c, hc⟩ := logistic_real ((∑ n : Fin 64, hg W x n * W.Wimp n) + W.bimp)
  exact ⟨a * (b * c), by unfold gate halt eng imp; rw [ha, hb, hc, EReal.coe_mul, EReal.coe_mul]⟩

theorem wr_real (m : Fin 64) : ∃ w : ℝ, wr W x m = (w : EReal) := by
  obtain ⟨a, ha⟩ := logistic_real ((∑ j : Fin 32, s1 W x j * W.Wsur j) + W.bsur)
  obtain ⟨b, hb⟩ := logistic_real ((∑ j : Fin 32, s1 W x j * W.Wgate j) + W.bgate)
  obtain ⟨c, hc⟩ := tanh_real (∑ j : Fin 32, s1 W x j * W.Wbr m j)
  exact ⟨a * b * c, by unfold wr sur s2; rw [ha, hb, hc, EReal.coe_mul, EReal.coe_mul]⟩

/-! ## The two arrangements of the read vector agree on real slabs -/

/-- Over the reals: Σ_l a_l·(δ_l/4) + ω·((Σ_l γ_l)/4) = (Σ_l (a_l·δ_l + γ_l·ω))/4, read inside the extended reals. -/
theorem read_law (a δ γ : Fin 4 → ℝ) (ω : ℝ) :
    (∑ l : Fin 4, (a l : EReal) * Ideal.div (δ l : EReal) four) + (ω : EReal) * Ideal.div (∑ l : Fin 4, (γ l : EReal)) four
      = Ideal.div (zeroW + ∑ l : Fin 4, ((a l : EReal) * (δ l : EReal) + (γ l : EReal) * (ω : EReal))) four := by
  have h4 : (4 : ℝ) ≠ 0 := by norm_num
  simp only [four, zeroW, four_eq, Ideal.ofBits_zero_f32, Ideal.div_coe h4, Fin.sum_univ_four, zero_add]
  simp only [← EReal.coe_mul, ← EReal.coe_add]
  exact congrArg _ (by ring)

theorem readK_eq_readR (hdd : ∀ l r m, W.dd l r m = Ideal.div (Ideal.logistic (W.dec l r m)) four)
    (hH : ∀ l r m, ∃ h : ℝ, H l r m = (h : EReal)) (r : Fin 8) (m : Fin 64) :
    readK W x H r m = readR W x H r m := by
  choose a ha using fun l => hH l r m
  choose δ hδ using fun l => logistic_real (W.dec l r m)
  choose γ hγ using fun l => gate_real W x l r
  obtain ⟨ω, hω⟩ := wr_real W x m
  unfold readK readR
  simp only [hdd, ha, hδ, hγ, hω]
  exact read_law a δ γ ω

theorem outK_eq_outR (hdd : ∀ l r m, W.dd l r m = Ideal.div (Ideal.logistic (W.dec l r m)) four)
    (hH : ∀ l r m, ∃ h : ℝ, H l r m = (h : EReal)) (o : Fin 8) :
    outK W x H o = outR W x H o := by
  unfold outK outR outOf
  exact congrArg (· + W.bread o) (Finset.sum_congr rfl fun j _ => congrArg (· * W.Wread o j) (readK_eq_readR W x H hdd hH _ _))

/-! ## The weights and the rows as the twenty argument arrays hold them -/

section args
open Idealize.ShloMosaic.ValueIdx

/-- The weights read off the argument arrays (numbered as the programs number their arguments); the decay gates
    divided by the number of layers are σ(decays)/4 by definition. -/
def argW (a2 : (⟨2, ![32, 8]⟩ : Shape).Idx → EReal) (a3 : (⟨1, ![32]⟩ : Shape).Idx → EReal)
    (a4 : (⟨2, ![64, 32]⟩ : Shape).Idx → EReal) (a5 : (⟨2, ![8, 512]⟩ : Shape).Idx → EReal)
    (a6 : (⟨1, ![8]⟩ : Shape).Idx → EReal) (a7 : (⟨2, ![64, 64]⟩ : Shape).Idx → EReal)
    (a8 : (⟨1, ![64]⟩ : Shape).Idx → EReal) (a9 : (⟨2, ![1, 64]⟩ : Shape).Idx → EReal)
    (a10 : (⟨1, ![1]⟩ : Shape).Idx → EReal) (a11 : (⟨2, ![1, 64]⟩ : Shape).Idx → EReal)
    (a12 : (⟨1, ![1]⟩ : Shape).Idx → EReal) (a13 : (⟨2, ![1, 32]⟩ : Shape).Idx → EReal)
    (a14 : (⟨1, ![1]⟩ : Shape).Idx → EReal) (a15 : (⟨2, ![1, 32]⟩ : Shape).Idx → EReal)
    (a16 : (⟨1, ![1]⟩ : Shape).Idx → EReal) (a17 a18 : (⟨3, ![4, 8, 64]⟩ : Shape).Idx → EReal)
    (a19 : (⟨1, ![4]⟩ : Shape).Idx → EReal) : Wts where
  Wbit := fun j k => a2 (ix2 j k)
  bbit := fun j => a3 (ix1 j)
  Wbr := fun m j => a4 (ix2 m j)
  Wread := fun o j => a5 (ix2 o j)
  bread := fun o => a6 (ix1 o)
  Wsh := fun n m => a7 (ix2 n m)
  bsh := fun n => a8 (ix1 n)
  Weng := fun n => a9 (ix2 (0 : Fin 1) n)
  beng := a10 (ix1 (0 : Fin 1))
  Wimp := fun n => a11 (ix2 (0 : Fin 1) n)
  bimp := a12 (ix1 (0 : Fin 1))
  Wsur := fun j => a13 (ix2 (0 : Fin 1) j)
  bsur := a14 (ix1 (0 : Fin 1))
  Wgate := fun j => a15 (ix2 (0 : Fin 1) j)
  bgate := a16 (ix1 (0 : Fin 1))
  dec := fun l r m => a17 (ix3 l r m)
  dd := fun l r m => Ideal.div (Ideal.logistic (a17 (ix3 l r m))) four
  hw := fun l r m => a18 (ix3 l r m)
  hb := fun l => a19 (ix1 l)

/-- Row b of x. -/
def xr (a0 : (⟨2, ![65536, 8]⟩ : Shape).Idx → EReal) (b : Fin 65536) : Fin 8 → EReal := fun k => a0 (ix2 b k)
/-- Row b of the slab, its 64 features counted as 16 × 4. -/
def Hr (a1 : (⟨5, ![65536, 4, 8, 16, 4]⟩ : Shape).Idx → EReal) (b : Fin 65536) : Fin 4 → Fin 8 → Fin 64 → EReal :=
  fun l r m => a1 (ix5 b l r (d16 m) (c4 m))

end args

/-- σ as the host spells it, 1/(1 + exp(−v)) with the word of 1.0, is σ. -/
theorem host_sig (v : EReal) :
    FloatOps.hostDivf (F := Ideal) (φ := .f32) (FloatOps.ofBits .f32 0x3F800000#32)
      (FloatOps.addf (FloatOps.ofBits .f32 0x3F800000#32) (FloatOps.hostUnary .exp (FloatOps.hostNegf v))) = Ideal.logistic v := by
  show Ideal.div (Ideal.ofBits .f32 0x3F800000#32) (Ideal.ofBits .f32 0x3F800000#32 + Ideal.exp (-v)) = _
  rw [one_eq]
  rfl

end Cert.Mem

end
-- ==== Proof.KRows.lean ====
/-
  The kernel body's arithmetic, one batch row at a time.

  Each value the body computes from its blocks is read at row y of the 1024-row block: the first latent s1, the two
  surprise heads, the bridge s2, the governor's hidden layer before its rectification, the mean over the layers of the
  halting gates, the decayed slab summed over the layers, the write vector, and the read-out. Put together, row y of
  the block the body stores is the read-out `Mem.outK` of row y of the x block and row y of the slab block, with the weights as
  the resident blocks hold them.
-/
import proofs.«162835_j32899449488193_2_alg».proof.Proof.Gen.KernelIdeal.Skeleton
import proofs.«162835_j32899449488193_2_alg».proof.Proof.LibRowOps
import proofs.«162835_j32899449488193_2_alg».proof.Proof.Spec

noncomputable section

open scoped BigOperators

namespace Cert.Mem.KRows

open Cert.KernelIdeal Cert.KernelIdeal.Gen Idealize.ShloMosaic Idealize.ShloMosaic.ValueIdx Cert.Mem

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The seven products of the body, each with its weights stored transposed -/

section dots
variable {φ₁ φ₂ : FTy}

theorem dot_8_32 (x : FVec Ideal S1024x8 φ₁) (W : FVec Ideal S32x8 φ₂) (y : Fin 1024) (j : Fin 32) :
    matmul dot_S1024x8_S8x32_S1024x32_1_0_0_1_n_n none x (transpose S8x32 [1, 0] W transposes_S32x8_p1_0_S8x32) (constant S1024x32 .f32 0x00000000#32) (ix2 y j)
      = ∑ k : Fin 8, x (ix2 y k) * W (ix2 j k) :=
  Cert.Lib.RowOps.dotT_apply _ rfl rfl rfl rfl rfl rfl x W _ y j

theorem dot_32_2 (x : FVec Ideal S1024x32 φ₁) (W : FVec Ideal S2x32 φ₂) (y : Fin 1024) (j : Fin 2) :
    matmul dot_S1024x32_S32x2_S1024x2_1_0_0_1_n_n none x (transpose S32x2 [1, 0] W transposes_S2x32_p1_0_S32x2) (constant S1024x2 .f32 0x00000000#32) (ix2 y j)
      = ∑ k : Fin 32, x (ix2 y k) * W (ix2 j k) :=
  Cert.Lib.RowOps.dotT_apply _ rfl rfl rfl rfl rfl rfl x W _ y j

theorem dot_32_64 (x : FVec Ideal S1024x32 φ₁) (W : FVec Ideal S64x32 φ₂) (y : Fin 1024) (j : Fin 64) :
    matmul dot_S1024x32_S32x64_S1024x64_1_0_0_1_n_n none x (transpose S32x64 [1, 0] W transposes_S64x32_p1_0_S32x64) (constant S1024x64 .f32 0x00000000#32) (ix2 y j)
      = ∑ k : Fin 32, x (ix2 y k) * W (ix2 j k) :=
  Cert.Lib.RowOps.dotT_apply _ rfl rfl rfl rfl rfl rfl x W _ y j

theorem dot_64_64 (x : FVec Ideal S1024x64 φ₁) (W : FVec Ideal S64x64 φ₂) (y : Fin 1024) (j : Fin 64) :
    matmul dot_S1024x64_S64x64_S1024x64_1_0_0_1_n_n none x (transpose S64x64 [1, 0] W transposes_S64x64_p1_0_S64x64) (constant S1024x64 .f32 0x00000000#32) (ix2 y j)
      = ∑ k : Fin 64, x (ix2 y k) * W (ix2 j k) :=
  Cert.Lib.RowOps.dotT_apply _ rfl rfl rfl rfl rfl rfl x W _ y j

theorem dot_64_2 (x : FVec Ideal S1024x64 φ₁) (W : FVec Ideal S2x64 φ₂) (y : Fin 1024) (j : Fin 2) :
    matmul dot_S1024x64_S64x2_S1024x2_1_0_0_1_n_n none x (transpose S64x2 [1, 0] W transposes_S2x64_p1_0_S64x2) (constant S1024x2 .f32 0x00000000#32) (ix2 y j)
      = ∑ k : Fin 64, x (ix2 y k) * W (ix2 j k) :=
  Cert.Lib.RowOps.dotT_apply _ rfl rfl rfl rfl rfl rfl x W _ y j

theorem dot_64_32 (x : FVec Ideal S1024x64 φ₁) (W : FVec Ideal S32x64 φ₂) (y : Fin 1024) (j : Fin 32) :
    matmul dot_S1024x64_S64x32_S1024x32_1_0_0_1_n_n none x (transpose S64x32 [1, 0] W transposes_S32x64_p1_0_S64x32) (constant S1024x32 .f32 0x00000000#32) (ix2 y j)
      = ∑ k : Fin 64, x (ix2 y k) * W (ix2 j k) :=
  Cert.Lib.RowOps.dotT_apply _ rfl rfl rfl rfl rfl rfl x W _ y j

theorem dot_512_8 (x : FVec Ideal S1024x512 φ₁) (W : FVec Ideal S8x512 φ₂) (y : Fin 1024) (j : Fin 8) :
    matmul dot_S1024x512_S512x8_S1024x8_1_0_0_1_n_n none x (transpose S512x8 [1, 0] W transposes_S8x512_p1_0_S512x8) (constant S1024x8 .f32 0x00000000#32) (ix2 y j)
      = ∑ k : Fin 512, x (ix2 y k) * W (ix2 j k) :=
  Cert.Lib.RowOps.dotT_apply _ rfl rfl rfl rfl rfl rfl x W _ y j

end dots

/-! ## The body's values at a row -/

variable (v0 : Vec Ideal S1024x8 .f32) (v2 : Vec Ideal S32x8 .f32) (v4 : Vec Ideal S32 .f32)

/-- s1 = x·W_bitᵀ + b_bit at (y, j). -/
theorem pay2_apply (y : Fin 1024) (j : Fin 32) :
    k0_pay2 (F := Ideal) v0 v2 v4 (ix2 y j) = (∑ k : Fin 8, v0 (ix2 y k) * v2 (ix2 j k)) + v4 (ix1 j) := by
  unfold k0_pay2
  simp only [truncf_apply, addf_apply, Cert.Lib.RowOps.biasRow_apply]
  rw [dot_8_32]
  rfl

/-- The product of the two surprise heads at row y. -/
theorem pay3_apply (v11 : Vec Ideal S2x32 .f32) (v14 : Vec Ideal S2 .f32) (y : Fin 1024) (u : Fin 1) :
    k0_pay3 (F := Ideal) v0 v2 v4 v11 v14 (ix2 y u)
      = Ideal.logistic ((∑ j : Fin 32, k0_pay2 (F := Ideal) v0 v2 v4 (ix2 y j) * v11 (ix2 (0 : Fin 2) j)) + v14 (ix1 (0 : Fin 2)))
        * Ideal.logistic ((∑ j : Fin 32, k0_pay2 (F := Ideal) v0 v2 v4 (ix2 y j) * v11 (ix2 (1 : Fin 2) j)) + v14 (ix1 (1 : Fin 2))) := by
  unfold k0_pay3
  simp only [shapeCast_self, mulf_apply, logistic_apply, Cert.Lib.RowOps.col0_apply, Cert.Lib.RowOps.col1_apply, addf_apply,
    Cert.Lib.RowOps.biasRow_apply, truncf_apply]
  rw [dot_32_2, dot_32_2]
  rfl

/-- s2 = tanh(s1·W_bridgeᵀ) at (y, m). -/
theorem pay4_apply (v26 : Vec Ideal S64x32 .f32) (y : Fin 1024) (m : Fin 64) :
    k0_pay4 (F := Ideal) v0 v2 v4 v26 (ix2 y m)
      = Ideal.tanh (∑ j : Fin 32, k0_pay2 (F := Ideal) v0 v2 v4 (ix2 y j) * v26 (ix2 m j)) := by
  unfold k0_pay4
  simp only [tanh_apply, truncf_apply]
  rw [dot_32_64]
  rfl

theorem pay5_apply (v26 : Vec Ideal S64x32 .f32) (y : Fin 1024) (m : Fin 64) :
    k0_pay5 (F := Ideal) v0 v2 v4 v26 (ix2 y m) = k0_pay4 (F := Ideal) v0 v2 v4 v26 (ix2 y m) := rfl

/-- The governor's hidden layer before its rectification, s2·W_shᵀ + b_sh, at (y, n). -/
theorem pay6_apply (v26 : Vec Ideal S64x32 .f32) (v32 : Vec Ideal S64x64 .f32) (v34 : Vec Ideal S64 .f32) (y : Fin 1024) (n : Fin 64) :
    k0_pay6 (F := Ideal) v0 v2 v4 v26 v32 v34 (ix2 y n)
      = (∑ m : Fin 64, k0_pay4 (F := Ideal) v0 v2 v4 v26 (ix2 y m) * v32 (ix2 n m)) + v34 (ix1 n) := by
  unfold k0_pay6
  simp only [addf_apply, Cert.Lib.RowOps.biasRow_apply, truncf_apply]
  rw [dot_64_64]
  rfl

theorem pay7_apply (i : S1024x64.Idx) : k0_pay7 (F := Ideal) i = zeroW := rfl

/-- The mean over the layers of the halting gates at (y, r), from s2 (in its narrowed form v31), the governor's hidden
    layer v39 and the zero block v40. -/
theorem pay8_apply (v31 : FVec Ideal S1024x64 .bf16) (v39 v40 : FVec Ideal S1024x64 .f32) (v43 : Vec Ideal S2x64 .f32)
    (v46 : Vec Ideal S2 .f32) (v57 : Vec Ideal S32x64 .f32) (v63 : Vec Ideal S4 .f32) (y : Fin 1024) (r : Fin 8) :
    k0_pay8 (F := Ideal) v31 v39 v40 v43 v46 v57 v63 (ix2 y r)
      = Ideal.div (∑ l : Fin 4,
          Ideal.logistic ((∑ m : Fin 64, v31 (ix2 y m) * v57 (ix2 (f32 l r) m)) + v63 (ix1 l))
          * (Ideal.logistic ((∑ n : Fin 64, max (v39 (ix2 y n)) (v40 (ix2 y n)) * v43 (ix2 (0 : Fin 2) n)) + v46 (ix1 (0 : Fin 2)))
             * Ideal.logistic ((∑ n : Fin 64, max (v39 (ix2 y n)) (v40 (ix2 y n)) * v43 (ix2 (1 : Fin 2) n)) + v46 (ix1 (1 : Fin 2)))))
        four := by
  unfold k0_pay8
  simp only [shapeCast_self, divf_apply, broadcast_apply]
  refine congrArg (fun z => Ideal.div z four) ?_
  refine (Cert.Lib.RowOps.sumMid_apply _ reduces_S1024x4x8_S1024x8 y r).trans ?_
  refine Finset.sum_congr rfl fun l _ => ?_
  simp only [mulf_apply, logistic_apply, addf_apply, Cert.Lib.RowOps.col_a11_acb_apply, Cert.Lib.RowOps.vec_1c1_acb_apply, Cert.Lib.RowOps.col0_apply,
    Cert.Lib.RowOps.col1_apply, Cert.Lib.RowOps.biasRow_apply, truncf_apply]
  rw [Cert.Lib.RowOps.cast_a32_a48_apply _ shapeCasts_S1024x32_S1024x4x8 y l r (f32 l r) rfl, dot_64_32, dot_64_2, dot_64_2]
  rfl

/-- The decayed slab summed over the layers at (y, j). -/
theorem pay9_apply (v75 : Vec Ideal S1024x4x512 .f32) (v77 : Vec Ideal S4x512 .f32) (y : Fin 1024) (j : Fin 512) :
    k0_pay9 (F := Ideal) v75 v77 (ix2 y j) = ∑ l : Fin 4, v75 (ix3 y l j) * v77 (ix2 l j) := by
  unfold k0_pay9
  simp only [shapeCast_self]
  refine (Cert.Lib.RowOps.sumMid_apply _ reduces_S1024x4x512_S1024x512 y j).trans ?_
  simp only [mulf_apply, Cert.Lib.RowOps.mat_1cb_acb_apply]

/-- The write vector at (y, m). -/
theorem pay10_apply (v25 : FVec Ideal S1024x1 .f32) (v30 : FVec Ideal S1024x64 .f32) (y : Fin 1024) (m : Fin 64) :
    k0_pay10 (F := Ideal) v25 v30 (ix2 y m) = v25 (ix2 y (0 : Fin 1)) * v30 (ix2 y m) := by
  unfold k0_pay10
  simp only [mulf_apply, Cert.LibKeepdims.broadcastTo_a1_ab_apply]

/-- The read-out at (y, o), from the gate means v74, the decayed slab v82 and the write vector v84. -/
theorem pay1_apply (v74 : FVec Ideal S1024x8 .f32) (v82 : FVec Ideal S1024x512 .f32) (v84 : FVec Ideal S1024x64 .f32)
    (v93 : Vec Ideal S8x512 .f32) (v95 : Vec Ideal S8 .f32) (y : Fin 1024) (o : Fin 8) :
    k0_pay1 (F := Ideal) v74 v82 v84 v93 v95 (ix2 y o)
      = (∑ j : Fin 512, (v82 (ix2 y j) + v84 (ix2 y (m64 j)) * v74 (ix2 y (r64 j))) * v93 (ix2 o j)) + v95 (ix1 o) := by
  unfold k0_pay1
  simp only [addf_apply, Cert.Lib.RowOps.biasRow_apply, truncf_apply]
  rw [dot_512_8]
  refine congrArg (· + v95 (ix1 o)) (Finset.sum_congr rfl fun j _ => congrArg (fun z => (v82 (ix2 y j) + z) * v93 (ix2 o j)) ?_)
  refine (Cert.Lib.RowOps.cast_a8x64_a512_apply _ shapeCasts_S1024x8x64_S1024x512 y j (r64 j) (m64 j) ?_).trans ?_
  · show j.val = j.val / 64 * 64 + j.val % 64
    omega
  · simp only [mulf_apply, Cert.Lib.RowOps.mat_a1b_acb_apply, Cert.Lib.RowOps.mat_ac1_acb_apply]

end Cert.Mem.KRows

end
-- ==== Proof.KBody.lean ====
/-
  Row y of the block the kernel body stores is the read-out of row y of its x block and of its slab block, the weights
  being the entries of its resident blocks: the two surprise rows and the engagement / impulse rows are rows 0 and 1 of
  the stacked [2, ·] blocks, the halting weights of (layer l, slot r) are row 8l + r of the [32, 64] block, and the
  decay gates divided by the number of layers at (l, r, m) sit at column 64r + m of the [4, 512] block.
-/
import proofs.«162835_j32899449488193_2_alg».proof.Proof.Gen.KernelIdeal.Frame
import proofs.«162835_j32899449488193_2_alg».proof.Proof.KRows

noncomputable section

open scoped BigOperators

namespace Cert.Mem.KBody

open Cert.KernelIdeal Cert.KernelIdeal.Gen Idealize.ShloMosaic Idealize.ShloMosaic.ValueIdx Cert.Mem

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The weights as the body's resident blocks hold them. -/
def kW (x2 : Vec Ideal S32x8 .f32) (x3 : Vec Ideal S32 .f32) (x4 : Vec Ideal S64x32 .f32) (x5 : Vec Ideal S8x512 .f32)
    (x6 : Vec Ideal S8 .f32) (x7 : Vec Ideal S64x64 .f32) (x8 : Vec Ideal S64 .f32) (x9 : Vec Ideal S2x32 .f32)
    (x10 : Vec Ideal S2 .f32) (x11 : Vec Ideal S2x64 .f32) (x12 : Vec Ideal S2 .f32) (x13 : Vec Ideal S4x512 .f32)
    (x14 : Vec Ideal S32x64 .f32) (x15 : Vec Ideal S4 .f32) (dec : Fin 4 → Fin 8 → Fin 64 → EReal) : Wts where
  Wbit := fun j k => x2 (ix2 j k)
  bbit := fun j => x3 (ix1 j)
  Wbr := fun m j => x4 (ix2 m j)
  Wread := fun o j => x5 (ix2 o j)
  bread := fun o => x6 (ix1 o)
  Wsh := fun n m => x7 (ix2 n m)
  bsh := fun n => x8 (ix1 n)
  Weng := fun n => x11 (ix2 (0 : Fin 2) n)
  beng := x12 (ix1 (0 : Fin 2))
  Wimp := fun n => x11 (ix2 (1 : Fin 2) n)
  bimp := x12 (ix1 (1 : Fin 2))
  Wsur := fun j => x9 (ix2 (0 : Fin 2) j)
  bsur := x10 (ix1 (0 : Fin 2))
  Wgate := fun j => x9 (ix2 (1 : Fin 2) j)
  bgate := x10 (ix1 (1 : Fin 2))
  dec := dec
  dd := fun l r m => x13 (ix2 l (f512 r m))
  hw := fun l r m => x14 (ix2 (f32 l r) m)
  hb := fun l => x15 (ix1 l)

/-- Row y of what the body leaves in the output block. -/
theorem out_row (x0 : Vec Ideal S1024x8 .f32) (x1 : Vec Ideal S1024x4x512 .f32) (x2 : Vec Ideal S32x8 .f32)
    (x3 : Vec Ideal S32 .f32) (x4 : Vec Ideal S64x32 .f32) (x5 : Vec Ideal S8x512 .f32) (x6 : Vec Ideal S8 .f32)
    (x7 : Vec Ideal S64x64 .f32) (x8 : Vec Ideal S64 .f32) (x9 : Vec Ideal S2x32 .f32) (x10 : Vec Ideal S2 .f32)
    (x11 : Vec Ideal S2x64 .f32) (x12 : Vec Ideal S2 .f32) (x13 : Vec Ideal S4x512 .f32) (x14 : Vec Ideal S32x64 .f32)
    (x15 : Vec Ideal S4 .f32) (dec : Fin 4 → Fin 8 → Fin 64 → EReal) (y : Fin 1024) (o : Fin 8) :
    out0_16 (F := Ideal) x0 x1 x2 x3 x4 x5 x6 x7 x8 x9 x10 x11 x12 x13 x14 x15 (ix2 y o)
      = outK (kW x2 x3 x4 x5 x6 x7 x8 x9 x10 x11 x12 x13 x14 x15 dec) (fun k => x0 (ix2 y k))
          (fun l r m => x1 (ix3 y l (f512 r m))) o := by
  unfold out0_16
  rw [View.canon_unit_zero hz2]
  simp only [View.ld_unit_zero (S := S1024x8) hz2, View.ld_unit_zero (S := S32x8) hz2, View.ld_unit_zero (S := S32) hz1,
    View.ld_unit_zero (S := S2x32) hz2, View.ld_unit_zero (S := S2) hz1, View.ld_unit_zero (S := S64x32) hz2,
    View.ld_unit_zero (S := S64x64) hz2, View.ld_unit_zero (S := S64) hz1, View.ld_unit_zero (S := S2x64) hz2,
    View.ld_unit_zero (S := S32x64) hz2, View.ld_unit_zero (S := S4) hz1, View.ld_unit_zero (S := S1024x4x512) hz3,
    View.ld_unit_zero (S := S4x512) hz2, View.ld_unit_zero (S := S8x512) hz2, View.ld_unit_zero (S := S8) hz1]
  rw [KRows.pay1_apply]
  simp only [KRows.pay9_apply, KRows.pay10_apply, KRows.pay8_apply, KRows.pay3_apply, KRows.pay5_apply, KRows.pay4_apply,
    KRows.pay6_apply, KRows.pay7_apply, KRows.pay2_apply]
  simp only [outK, outOf, readK, wr, sur, s2, s1, hg, eng, imp, halt, gate, kW, f512_r64_m64]

end Cert.Mem.KBody

end
-- ==== Proof.HostPre.lean ====
/-
  What the host operations in front of the kernel leave in the arrays the kernel's windows stage, read at an index:
  the slab [B,4,8,16,4] re-laid as [B,4,512] (column 64r + m of layer l is entry (l, r, m / 4, m mod 4)); the decay gates
  σ(decays) re-laid as [4,512] and divided by 4; the halting weights [4,8,64] re-laid as [32,64] (row 8l + r is (l, r));
  and the four stackings of two one-row arrays into a two-row array.
-/
import proofs.«162835_j32899449488193_2_alg».proof.Proof.Gen.KernelIdeal.Frame
import proofs.«162835_j32899449488193_2_alg».proof.Proof.Spec
import proofs.«162835_j32899449488193_2_alg».proof.Proof.LibFoldRows
import Idealize.ShloMosaic.Lib.StableHlo.Run
import Idealize.ShloMosaic.Lib.Pipeline.Value

noncomputable section

open scoped BigOperators

namespace Cert.Mem.HostPre

open Cert.KernelIdeal Cert.KernelIdeal.Gen Idealize.ShloMosaic Idealize.ShloMosaic.ValueIdx Idealize.ShloMosaic.StableHlo
  Idealize.ShloMosaic.TcCoe Idealize.SL.Sem Cert.Mem

variable (m : (ℓ : Loc nD τ sig) → Buf (Elt Ideal) ℓ) (c : Dev nD)

/-- A scalar constant spread over a shape reads its word everywhere. -/
theorem bcast_const (S : Shape) (h : S_.BroadcastsInDim S ![]) (w : BitVec 32) (i : S.Idx) :
    broadcastInDim S ![] h (constant (F := Ideal) S_ .f32 w) i = Ideal.ofBits .f32 w :=
  (broadcastInDim_apply ![] h _ i ix0 (fun a => a.elim0)).trans rfl

/-! ## The arrays as whole terms -/

theorem V_v0 : (V m c main_v0 : S65536x4x512.Idx → EReal)
    = shapeCast S65536x4x512 (m ((c : Thread nD τ).loc main_arg1) : S65536x4x8x16x4.Idx → EReal) shapeCasts_S65536x4x8x16x4_S65536x4x512 := by
  dsimp only [Gen.V, Gen.hostOps0]
  after_results
  rfl

theorem V_v9 : (V m c main_v9 : S4x512.Idx → EReal)
    = Host.divf (F := Ideal) (shapeCast S4x512
        (Host.divf (F := Ideal) (broadcastInDim S4x8x64 ![] bcast_S_S4x8x64 (constant (F := Ideal) S_ .f32 0x3F800000#32))
          (addf (broadcastInDim S4x8x64 ![] bcast_S_S4x8x64 (constant (F := Ideal) S_ .f32 0x3F800000#32))
            (Host.exp (Host.negf (m ((c : Thread nD τ).loc main_arg17) : S4x8x64.Idx → EReal)))))
        shapeCasts_S4x8x64_S4x512)
      (broadcastInDim S4x512 ![] bcast_S_S4x512 (constant (F := Ideal) S_ .f32 0x40800000#32)) := by
  dsimp only [Gen.V, Gen.hostOps0]
  after_results
  rfl

theorem V_v10 : (V m c main_v10 : S32x64.Idx → EReal)
    = shapeCast S32x64 (m ((c : Thread nD τ).loc main_arg18) : S4x8x64.Idx → EReal) shapeCasts_S4x8x64_S32x64 := by
  dsimp only [Gen.V, Gen.hostOps0]
  after_results
  rfl

theorem V_v11 : (V m c main_v11 : S2x32.Idx → EReal)
    = concatenate S2x32 0 [⟨S1x32, (m ((c : Thread nD τ).loc main_arg13) : S1x32.Idx → EReal)⟩,
        ⟨S1x32, (m ((c : Thread nD τ).loc main_arg15) : S1x32.Idx → EReal)⟩] concatenates_S1x32_S1x32_S2x32_d0 := by
  dsimp only [Gen.V, Gen.hostOps0]
  after_results

theorem V_v12 : (V m c main_v12 : S2.Idx → EReal)
    = concatenate S2 0 [⟨S1, (m ((c : Thread nD τ).loc main_arg14) : S1.Idx → EReal)⟩,
        ⟨S1, (m ((c : Thread nD τ).loc main_arg16) : S1.Idx → EReal)⟩] concatenates_S1_S1_S2_d0 := by
  dsimp only [Gen.V, Gen.hostOps0]
  after_results

theorem V_v13 : (V m c main_v13 : S2x64.Idx → EReal)
    = concatenate S2x64 0 [⟨S1x64, (m ((c : Thread nD τ).loc main_arg9) : S1x64.Idx → EReal)⟩,
        ⟨S1x64, (m ((c : Thread nD τ).loc main_arg11) : S1x64.Idx → EReal)⟩] concatenates_S1x64_S1x64_S2x64_d0 := by
  dsimp only [Gen.V, Gen.hostOps0]
  after_results

theorem V_v14 : (V m c main_v14 : S2.Idx → EReal)
    = concatenate S2 0 [⟨S1, (m ((c : Thread nD τ).loc main_arg10) : S1.Idx → EReal)⟩,
        ⟨S1, (m ((c : Thread nD τ).loc main_arg12) : S1.Idx → EReal)⟩] concatenates_S1_S1_S2_d0 := by
  dsimp only [Gen.V, Gen.hostOps0]
  after_results

/-! ## Their entries -/

/-- The re-laid slab at (b, l, 64r + m). -/
theorem v0_at (b : Fin 65536) (l : Fin 4) (r : Fin 8) (mm : Fin 64) :
    (V m c main_v0 : S65536x4x512.Idx → EReal) (ix3 b l (f512 r mm))
      = (m ((c : Thread nD τ).loc main_arg1) : S65536x4x8x16x4.Idx → EReal) (ix5 b l r (d16 mm) (c4 mm)) := by
  rw [V_v0]
  refine shapeCast_apply _ _ _ _ ?_
  show (S65536x4x8x16x4.rowMajor (ix5 b l r (d16 mm) (c4 mm))).val = (S65536x4x512.rowMajor (ix3 b l (f512 r mm))).val
  rw [Shape.rowMajor_val_five, Shape.rowMajor_val_three]
  have := mm.isLt
  show (((b.val * 4 + l.val) * 8 + r.val) * 16 + mm.val / 4) * 4 + mm.val % 4 = (b.val * 4 + l.val) * 512 + (r.val * 64 + mm.val)
  omega

/-- The decay gates over 4 at (l, 64r + m). -/
theorem v9_at (l : Fin 4) (r : Fin 8) (mm : Fin 64) :
    (V m c main_v9 : S4x512.Idx → EReal) (ix2 l (f512 r mm))
      = Ideal.div (Ideal.logistic ((m ((c : Thread nD τ).loc main_arg17) : S4x8x64.Idx → EReal) (ix3 l r mm))) four := by
  rw [V_v9]
  show Ideal.div (shapeCast S4x512 _ shapeCasts_S4x8x64_S4x512 (ix2 l (f512 r mm))) (broadcastInDim S4x512 ![] bcast_S_S4x512 (constant (F := Ideal) S_ .f32 0x40800000#32) (ix2 l (f512 r mm))) = _
  rw [bcast_const, shapeCast_apply _ shapeCasts_S4x8x64_S4x512 (ix2 l (f512 r mm)) (ix3 l r mm) (by
    rw [Shape.rowMajor_val_three, Shape.rowMajor_val_two]
    show (l.val * 8 + r.val) * 64 + mm.val = l.val * 512 + (r.val * 64 + mm.val)
    omega)]
  refine congrArg (fun z => Ideal.div z four) ?_
  show FloatOps.hostDivf (F := Ideal) (φ := .f32) (broadcastInDim S4x8x64 ![] bcast_S_S4x8x64 (constant (F := Ideal) S_ .f32 0x3F800000#32) (ix3 l r mm))
      (FloatOps.addf (broadcastInDim S4x8x64 ![] bcast_S_S4x8x64 (constant (F := Ideal) S_ .f32 0x3F800000#32) (ix3 l r mm))
        (FloatOps.hostUnary .exp (FloatOps.hostNegf ((m ((c : Thread nD τ).loc main_arg17) : S4x8x64.Idx → EReal) (ix3 l r mm))))) = _
  rw [bcast_const]
  exact host_sig _

/-- The re-laid halting weights at (8l + r, m). -/
theorem v10_at (l : Fin 4) (r : Fin 8) (mm : Fin 64) :
    (V m c main_v10 : S32x64.Idx → EReal) (ix2 (f32 l r) mm)
      = (m ((c : Thread nD τ).loc main_arg18) : S4x8x64.Idx → EReal) (ix3 l r mm) := by
  rw [V_v10]
  exact Cert.Lib.FoldRows.shapeCast_fold_apply _ shapeCasts_S4x8x64_S32x64 l r mm (f32 l r) rfl

section stack
variable {α : Type}

/-- Rows 0 and 1 of two one-row arrays stacked. -/
theorem stack2_row0 {n : ℕ} (a b : (⟨2, ![1, n]⟩ : Shape).Idx → α)
    (h : Shape.Concatenates [⟨2, ![1, n]⟩, ⟨2, ![1, n]⟩] ⟨2, ![2, n]⟩ 0) (k : Fin n) :
    concatenate ⟨2, ![2, n]⟩ 0 [⟨⟨2, ![1, n]⟩, a⟩, ⟨⟨2, ![1, n]⟩, b⟩] h (ix2 (0 : Fin 2) k) = a (ix2 (0 : Fin 1) k) :=
  concatenate_pair_apply_left 0 a b h _ rfl _ fun d => match d with | ⟨0, _⟩ => rfl | ⟨1, _⟩ => rfl

theorem stack2_row1 {n : ℕ} (a b : (⟨2, ![1, n]⟩ : Shape).Idx → α)
    (h : Shape.Concatenates [⟨2, ![1, n]⟩, ⟨2, ![1, n]⟩] ⟨2, ![2, n]⟩ 0) (k : Fin n) :
    concatenate ⟨2, ![2, n]⟩ 0 [⟨⟨2, ![1, n]⟩, a⟩, ⟨⟨2, ![1, n]⟩, b⟩] h (ix2 (1 : Fin 2) k) = b (ix2 (0 : Fin 1) k) :=
  concatenate_pair_apply_right 0 a b h _ rfl rfl _
    (fun d hd => match d with | ⟨0, _⟩ => absurd rfl hd | ⟨1, _⟩ => rfl) rfl

/-- Entries 0 and 1 of two one-entry vectors stacked. -/
theorem stack1_0 (a b : (⟨1, ![1]⟩ : Shape).Idx → α)
    (h : Shape.Concatenates [⟨1, ![1]⟩, ⟨1, ![1]⟩] ⟨1, ![2]⟩ 0) :
    concatenate ⟨1, ![2]⟩ 0 [⟨⟨1, ![1]⟩, a⟩, ⟨⟨1, ![1]⟩, b⟩] h (ix1 (0 : Fin 2)) = a (ix1 (0 : Fin 1)) :=
  concatenate_pair_apply_left 0 a b h _ rfl _ fun d => match d with | ⟨0, _⟩ => rfl

theorem stack1_1 (a b : (⟨1, ![1]⟩ : Shape).Idx → α)
    (h : Shape.Concatenates [⟨1, ![1]⟩, ⟨1, ![1]⟩] ⟨1, ![2]⟩ 0) :
    concatenate ⟨1, ![2]⟩ 0 [⟨⟨1, ![1]⟩, a⟩, ⟨⟨1, ![1]⟩, b⟩] h (ix1 (1 : Fin 2)) = b (ix1 (0 : Fin 1)) :=
  concatenate_pair_apply_right 0 a b h _ rfl rfl _
    (fun d hd => match d with | ⟨0, _⟩ => absurd rfl hd) rfl

end stack

end Cert.Mem.HostPre

end
-- ==== Proof.Blocks.lean ====
/-
  From the blocks to the whole result array.

  The grid has 64 points; point t stages rows 1024t … 1024t + 1023 of x and of the re-laid slab, the whole of every
  weight array, and writes back rows 1024t … 1024t + 1023 of the result. Row p of what point t writes back is, by the
  body's arithmetic, the read-out `outK` of row 1024t + p of x and of the slab with the weights of the argument arrays
  (the host operations in front of the kernel only re-lay, stack or pre-divide them); when the slab's entries are real
  this is `outR` of the same row. The 64 blocks tile the result, so the result array is `outR` row by row.
-/
import proofs.«162835_j32899449488193_2_alg».proof.Proof.Gen.KernelIdeal.Value
import proofs.«162835_j32899449488193_2_alg».proof.Proof.KBody
import proofs.«162835_j32899449488193_2_alg».proof.Proof.HostPre

noncomputable section

open scoped BigOperators

namespace Cert.Mem.Blocks

open Cert.KernelIdeal Cert.KernelIdeal.Gen Idealize.ShloMosaic Idealize.ShloMosaic.ValueIdx Idealize.ShloMosaic.TcCoe
  Idealize.SL.Sem Cert.Mem
open Idealize.ShloMosaic.Pipeline (Dat)

variable (m : (ℓ : Loc nD τ sig) → Buf (Elt Ideal) ℓ) (ρ : Dev nD → PrngReg)

/-! ## Where each window's block sits -/

/-- The three moving windows sit at block t along the batch axis. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
/-- The resident windows sit at block 0 on every axis. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)

/-- Row p of block t of the batch. -/
def row (t : Fin cfg0.N) (p : Fin 1024) : Fin 65536 :=
  ⟨t.val * 1024 + p.val, by have hN : cfg0.N = 64 := N_0; have := t.isLt; have := p.isLt; omega⟩

/-! ## The blocks read off the arrays -/

theorem blk0 (c : Dev nD) (t : Fin cfg0.N) (p : Fin 1024) (k : Fin 8) :
    iblk m c 0 t (ix2 p k) = (m ((c : Thread nD τ).loc main_arg0) : S65536x8.Idx → EReal) (ix2 (row t p) k) := by
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; rw [(idx0 t).1]; omega
  | ⟨1, _⟩ => show win0_0.index t (1 : Fin 2) * 8 + 1 * k.val = k.val; rw [(idx0 t).2]; omega

theorem blk1 (c : Dev nD) (t : Fin cfg0.N) (p : Fin 1024) (l : Fin 4) (j : Fin 512) :
    iblk m c 1 t (ix3 p l j) = (V m c main_v0 : S65536x4x512.Idx → EReal) (ix3 (row t p) l j) := by
  show V m c main_v0 (((cfg0.win 1).blk t).view.emb (ix3 p l j)) = _
  refine congrArg _ (funext fun a => Fin.ext ?_)
  match a with
  | ⟨0, _⟩ => show win0_1.index t (0 : Fin 3) * 1024 + 1 * p.val = t.val * 1024 + p.val; rw [(idx1 t).1]; omega
  | ⟨1, _⟩ => show win0_1.index t (1 : Fin 3) * 4 + 1 * l.val = l.val; rw [(idx1 t).2.1]; omega
  | ⟨2, _⟩ => show win0_1.index t (2 : Fin 3) * 512 + 1 * j.val = j.val; rw [(idx1 t).2.2]; omega

theorem emb16 (t : Fin cfg0.N) (p : Fin 1024) (q : Fin 8) :
    ((cfg0.win 16).blk t).view.emb (ix2 p q) = (ix2 (row t p) q : S65536x8.Idx) := by
  refine funext fun a => Fin.ext ?_
  match a with
  | ⟨0, _⟩ => show win0_16.index t (0 : Fin 2) * 1024 + 1 * p.val = t.val * 1024 + p.val; rw [(idx16 t).1]; omega
  | ⟨1, _⟩ => show win0_16.index t (1 : Fin 2) * 8 + 1 * q.val = q.val; rw [(idx16 t).2]; omega

theorem blk2 (c : Dev nD) (t : Fin cfg0.N) (y : S32x8.Idx) : iblk m c 2 t y = V m c main_arg2 y := by
  show V m c main_arg2 (((cfg0.win 2).blk t).view.emb y) = V m c main_arg2 y
  refine congrArg _ (funext fun a => Fin.ext ?_)
  match a with
  | ⟨0, _⟩ => show win0_2.index t (0 : Fin 2) * 32 + 1 * (y 0).val = (y 0).val; rw [(idx2 t).1]; omega
  | ⟨1, _⟩ => show win0_2.index t (1 : Fin 2) * 8 + 1 * (y 1).val = (y 1).val; rw [(idx2 t).2]; omega

theorem blk3 (c : Dev nD) (t : Fin cfg0.N) (y : S32.Idx) : iblk m c 3 t y = V m c main_arg3 y := by
  show V m c main_arg3 (((cfg0.win 3).blk t).view.emb y) = V m c main_arg3 y
  refine congrArg _ (funext fun a => Fin.ext ?_)
  match a with
  | ⟨0, _⟩ => show win0_3.index t (0 : Fin 1) * 32 + 1 * (y 0).val = (y 0).val; rw [idx3 t]; omega

theorem blk4 (c : Dev nD) (t : Fin cfg0.N) (y : S64x32.Idx) : iblk m c 4 t y = V m c main_arg4 y := by
  show V m c main_arg4 (((cfg0.win 4).blk t).view.emb y) = V m c main_arg4 y
  refine congrArg _ (funext fun a => Fin.ext ?_)
  match a with
  | ⟨0, _⟩ => show win0_4.index t (0 : Fin 2) * 64 + 1 * (y 0).val = (y 0).val; rw [(idx4 t).1]; omega
  | ⟨1, _⟩ => show win0_4.index t (1 : Fin 2) * 32 + 1 * (y 1).val = (y 1).val; rw [(idx4 t).2]; omega

theorem blk5 (c : Dev nD) (t : Fin cfg0.N) (y : S8x512.Idx) : iblk m c 5 t y = V m c main_arg5 y := by
  show V m c main_arg5 (((cfg0.win 5).blk t).view.emb y) = V m c main_arg5 y
  refine congrArg _ (funext fun a => Fin.ext ?_)
  match a with
  | ⟨0, _⟩ => show win0_5.index t (0 : Fin 2) * 8 + 1 * (y 0).val = (y 0).val; rw [(idx5 t).1]; omega
  | ⟨1, _⟩ => show win0_5.index t (1 : Fin 2) * 512 + 1 * (y 1).val = (y 1).val; rw [(idx5 t).2]; omega

theorem blk6 (c : Dev nD) (t : Fin cfg0.N) (y : S8.Idx) : iblk m c 6 t y = V m c main_arg6 y := by
  show V m c main_arg6 (((cfg0.win 6).blk t).view.emb y) = V m c main_arg6 y
  refine congrArg _ (funext fun a => Fin.ext ?_)
  match a with
  | ⟨0, _⟩ => show win0_6.index t (0 : Fin 1) * 8 + 1 * (y 0).val = (y 0).val; rw [idx6 t]; omega

theorem blk7 (c : Dev nD) (t : Fin cfg0.N) (y : S64x64.Idx) : iblk m c 7 t y = V m c main_arg7 y := by
  show V m c main_arg7 (((cfg0.win 7).blk t).view.emb y) = V m c main_arg7 y
  refine congrArg _ (funext fun a => Fin.ext ?_)
  match a with
  | ⟨0, _⟩ => show win0_7.index t (0 : Fin 2) * 64 + 1 * (y 0).val = (y 0).val; rw [(idx7 t).1]; omega
  | ⟨1, _⟩ => show win0_7.index t (1 : Fin 2) * 64 + 1 * (y 1).val = (y 1).val; rw [(idx7 t).2]; omega

theorem blk8 (c : Dev nD) (t : Fin cfg0.N) (y : S64.Idx) : iblk m c 8 t y = V m c main_arg8 y := by
  show V m c main_arg8 (((cfg0.win 8).blk t).view.emb y) = V m c main_arg8 y
  refine congrArg _ (funext fun a => Fin.ext ?_)
  match a with
  | ⟨0, _⟩ => show win0_8.index t (0 : Fin 1) * 64 + 1 * (y 0).val = (y 0).val; rw [idx8 t]; omega

theorem blk9 (c : Dev nD) (t : Fin cfg0.N) (y : S2x32.Idx) : iblk m c 9 t y = V m c main_v11 y := by
  show V m c main_v11 (((cfg0.win 9).blk t).view.emb y) = V m c main_v11 y
  refine congrArg _ (funext fun a => Fin.ext ?_)
  match a with
  | ⟨0, _⟩ => show win0_9.index t (0 : Fin 2) * 2 + 1 * (y 0).val = (y 0).val; rw [(idx9 t).1]; omega
  | ⟨1, _⟩ => show win0_9.index t (1 : Fin 2) * 32 + 1 * (y 1).val = (y 1).val; rw [(idx9 t).2]; omega

theorem blk10 (c : Dev nD) (t : Fin cfg0.N) (y : S2.Idx) : iblk m c 10 t y = V m c main_v12 y := by
  show V m c main_v12 (((cfg0.win 10).blk t).view.emb y) = V m c main_v12 y
  refine congrArg _ (funext fun a => Fin.ext ?_)
  match a with
  | ⟨0, _⟩ => show win0_10.index t (0 : Fin 1) * 2 + 1 * (y 0).val = (y 0).val; rw [idx10 t]; omega

theorem blk11 (c : Dev nD) (t : Fin cfg0.N) (y : S2x64.Idx) : iblk m c 11 t y = V m c main_v13 y := by
  show V m c main_v13 (((cfg0.win 11).blk t).view.emb y) = V m c main_v13 y
  refine congrArg _ (funext fun a => Fin.ext ?_)
  match a with
  | ⟨0, _⟩ => show win0_11.index t (0 : Fin 2) * 2 + 1 * (y 0).val = (y 0).val; rw [(idx11 t).1]; omega
  | ⟨1, _⟩ => show win0_11.index t (1 : Fin 2) * 64 + 1 * (y 1).val = (y 1).val; rw [(idx11 t).2]; omega

theorem blk12 (c : Dev nD) (t : Fin cfg0.N) (y : S2.Idx) : iblk m c 12 t y = V m c main_v14 y := by
  show V m c main_v14 (((cfg0.win 12).blk t).view.emb y) = V m c main_v14 y
  refine congrArg _ (funext fun a => Fin.ext ?_)
  match a with
  | ⟨0, _⟩ => show win0_12.index t (0 : Fin 1) * 2 + 1 * (y 0).val = (y 0).val; rw [idx12 t]; omega

theorem blk13 (c : Dev nD) (t : Fin cfg0.N) (y : S4x512.Idx) : iblk m c 13 t y = V m c main_v9 y := by
  show V m c main_v9 (((cfg0.win 13).blk t).view.emb y) = V m c main_v9 y
  refine congrArg _ (funext fun a => Fin.ext ?_)
  match a with
  | ⟨0, _⟩ => show win0_13.index t (0 : Fin 2) * 4 + 1 * (y 0).val = (y 0).val; rw [(idx13 t).1]; omega
  | ⟨1, _⟩ => show win0_13.index t (1 : Fin 2) * 512 + 1 * (y 1).val = (y 1).val; rw [(idx13 t).2]; omega

theorem blk14 (c : Dev nD) (t : Fin cfg0.N) (y : S32x64.Idx) : iblk m c 14 t y = V m c main_v10 y := by
  show V m c main_v10 (((cfg0.win 14).blk t).view.emb y) = V m c main_v10 y
  refine congrArg _ (funext fun a => Fin.ext ?_)
  match a with
  | ⟨0, _⟩ => show win0_14.index t (0 : Fin 2) * 32 + 1 * (y 0).val = (y 0).val; rw [(idx14 t).1]; omega
  | ⟨1, _⟩ => show win0_14.index t (1 : Fin 2) * 64 + 1 * (y 1).val = (y 1).val; rw [(idx14 t).2]; omega

theorem blk15 (c : Dev nD) (t : Fin cfg0.N) (y : S4.Idx) : iblk m c 15 t y = V m c main_arg19 y := by
  show V m c main_arg19 (((cfg0.win 15).blk t).view.emb y) = V m c main_arg19 y
  refine congrArg _ (funext fun a => Fin.ext ?_)
  match a with
  | ⟨0, _⟩ => show win0_15.index t (0 : Fin 1) * 4 + 1 * (y 0).val = (y 0).val; rw [idx15 t]; omega

/-! ## The weights in the resident blocks are the argument arrays' -/

theorem kW_eq (c : Dev nD) (t : Fin cfg0.N) :
    KBody.kW (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun l r mm => (m ((c : Thread nD τ).loc main_arg17) : S4x8x64.Idx → EReal) (ix3 l r mm))
      = (argW (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  unfold KBody.kW argW
  congr 1
  · funext j k; exact (blk2 m c t _).trans (congrFun (V_main_arg2 m c) _)
  · funext j; exact (blk3 m c t _).trans (congrFun (V_main_arg3 m c) _)
  · funext j k; exact (blk4 m c t _).trans (congrFun (V_main_arg4 m c) _)
  · funext j k; exact (blk5 m c t _).trans (congrFun (V_main_arg5 m c) _)
  · funext j; exact (blk6 m c t _).trans (congrFun (V_main_arg6 m c) _)
  · funext j k; exact (blk7 m c t _).trans (congrFun (V_main_arg7 m c) _)
  · funext j; exact (blk8 m c t _).trans (congrFun (V_main_arg8 m c) _)
  · funext n; exact (blk11 m c t _).trans ((congrFun (HostPre.V_v13 m c) _).trans (HostPre.stack2_row0 _ _ _ n))
  · exact (blk12 m c t _).trans ((congrFun (HostPre.V_v14 m c) _).trans (HostPre.stack1_0 _ _ _))
  · funext n; exact (blk11 m c t _).trans ((congrFun (HostPre.V_v13 m c) _).trans (HostPre.stack2_row1 _ _ _ n))
  · exact (blk12 m c t _).trans ((congrFun (HostPre.V_v14 m c) _).trans (HostPre.stack1_1 _ _ _))
  · funext j; exact (blk9 m c t _).trans ((congrFun (HostPre.V_v11 m c) _).trans (HostPre.stack2_row0 _ _ _ j))
  · exact (blk10 m c t _).trans ((congrFun (HostPre.V_v12 m c) _).trans (HostPre.stack1_0 _ _ _))
  · funext j; exact (blk9 m c t _).trans ((congrFun (HostPre.V_v11 m c) _).trans (HostPre.stack2_row1 _ _ _ j))
  · exact (blk10 m c t _).trans ((congrFun (HostPre.V_v12 m c) _).trans (HostPre.stack1_1 _ _ _))
  · funext l r mm; exact (blk13 m c t _).trans (HostPre.v9_at m c l r mm)
  · funext l r mm; exact (blk14 m c t _).trans (HostPre.v10_at m c l r mm)
  · funext l; exact (blk15 m c t _).trans (congrFun (V_main_arg19 m c) _)

/-! ## The result array -/

/-- The result array as one function of the argument arrays: row b is the read-out of row b. -/
def G (c : Dev nD) : S65536x8.Idx → EReal := fun i =>
  outR (argW (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (xr (m ((c : Thread nD τ).loc main_arg0)) (i 0)) (Hr (m ((c : Thread nD τ).loc main_arg1)) (i 0)) (i 1)

/-- What point t writes back is block t of G, when the slab's entries are real. -/
theorem flushed_eq (c : Dev nD) (hH : ∀ i, ∃ r : ℝ, (m ((c : Thread nD τ).loc main_arg1) : S65536x4x8x16x4.Idx → EReal) i = (r : EReal))
    (t : Fin cfg0.N) :
    (dats m 0 c).flushed 16 t = ((cfg0.win 16).blk t).view.read (Elt Ideal) (G m c) := by
  rw [Cert.KernelIdeal.Value.flushed16]
  funext y
  obtain ⟨p, q, rfl⟩ : ∃ (p : Fin 1024) (q : Fin 8), y = ix2 p q := ⟨y 0, y 1, eq_ix2 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q) = G m c (((cfg0.win 16).blk t).view.emb (ix2 p q))
  rw [emb16 t p q]
  refine (KBody.out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (fun l r mm => (m ((c : Thread nD τ).loc main_arg17) : S4x8x64.Idx → EReal) (ix3 l r mm)) p q).trans ?_
  rw [kW_eq m c t]
  have hx : (fun k => iblk m c 0 t (ix2 p k)) = xr (m ((c : Thread nD τ).loc main_arg0)) (row t p) := funext fun k => blk0 m c t p k
  have hs : (fun l r mm => iblk m c 1 t (ix3 p l (f512 r mm))) = Hr (m ((c : Thread nD τ).loc main_arg1)) (row t p) :=
    funext fun l => funext fun r => funext fun mm => (blk1 m c t p l _).trans (HostPre.v0_at m c (row t p) l r mm)
  rw [hx, hs]
  exact outK_eq_outR _ _ _ (fun _ _ _ => rfl) (fun _ _ _ => hH _) q

theorem mem_blk16 (t : Fin cfg0.N) (i : S65536x8.Idx) :
    i ∈ ((cfg0.win 16).blk t).view.set ↔ ∀ a : Fin 2, win0_16.index t a * S1024x8.size a ≤ (i a).val ∧ (i a).val < win0_16.index t a * S1024x8.size a + S1024x8.size a := by
  show i ∈ ((View.whole main_v15).slice (win0_16.rect t)).set ↔ _
  rw [View.set_slice_whole, Rect.mem_set_unit]
  exact Iff.rfl

/-- Every row of the result is in the block of point (row / 1024). -/
theorem cover (i : S65536x8.Idx) : ∃ t : Fin cfg0.N, (cfg0.win 16).flush t = true ∧ i ∈ ((cfg0.win 16).blk t).view.set := by
  have hN : cfg0.N = 64 := N_0
  have h0 : (i 0).val < 65536 := (i 0).isLt
  have h1 : (i 1).val < 8 := (i 1).isLt
  refine ⟨⟨(i 0).val / 1024, by omega⟩, flush0_16 _, ?_⟩
  rw [mem_blk16]
  intro a
  match a with
  | ⟨0, _⟩ =>
    show win0_16.index _ (0 : Fin 2) * 1024 ≤ (i 0).val ∧ (i 0).val < win0_16.index _ (0 : Fin 2) * 1024 + 1024
    rw [(idx16 _).1]
    show (i 0).val / 1024 * 1024 ≤ (i 0).val ∧ (i 0).val < (i 0).val / 1024 * 1024 + 1024
    omega
  | ⟨1, _⟩ =>
    show win0_16.index _ (1 : Fin 2) * 8 ≤ (i 1).val ∧ (i 1).val < win0_16.index _ (1 : Fin 2) * 8 + 8
    rw [(idx16 _).2]
    omega

/-- The result array after the run. -/
theorem final (c : Dev nD) (hH : ∀ i, ∃ r : ℝ, (m ((c : Thread nD τ).loc main_arg1) : S65536x4x8x16x4.Idx → EReal) i = (r : EReal)) :
    (dats m 0 c).arrAt 16 cfg0.N = G m c :=
  (dats m 0 c).arrAt_eq_of_cover 16 (G m c) (fun t _ => flushed_eq m c hH t) cover

end Cert.Mem.Blocks

end
-- ==== Proof.RefRows.lean ====
/-
  The reference program, one batch row at a time.

  Each intermediate array of the reference is read at an arbitrary index as the matching stage of `Cert.Mem` of the row
  the index names: the first latent s1, the surprise, the bridge s2, the governor's hidden layer, engagement and impulse,
  the halting gates and their product with engagement·impulse, the decay gates, the write vector, the updated slab, its
  mean over the layers, and the read-out. Along the way every layout operation (a transposed weight, a bias spread over
  the rows, a unit axis added or dropped) only renames an index; the reshapes of the slab [B,4,8,16,4] → [B,4,8,64] and
  of the read vector [B,8,64] → [B,512] are the row-major identifications m = 4d + c and j = 64r + m.
-/
import proofs.«162835_j32899449488193_2_alg».proof.Proof.Gen.ReferenceIdeal.Read
import proofs.«162835_j32899449488193_2_alg».proof.Proof.Spec

noncomputable section

open scoped BigOperators

namespace Cert.Mem.RefRows

open Cert.ReferenceIdeal Cert.ReferenceIdeal.Read Idealize.ShloMosaic Idealize.ShloMosaic.ValueIdx Cert.Mem

/-- Two indices are equal when their coordinates are, one coordinate at a time. -/
macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))
macro "idx4" : tactic => `(tactic| (funext a; match a with | ⟨0, _⟩ => rfl | ⟨1, _⟩ => rfl | ⟨2, _⟩ => rfl | ⟨3, _⟩ => rfl))

/-- An axis of extent 1 has the one coordinate 0. -/
theorem fin1 (u : Fin 1) : u = 0 := Fin.ext (by have := u.isLt; omega)

variable (X0 : (⟨S65536x8, .f32⟩ : BufTy).Contents (Elt Ideal)) (X1 : (⟨S65536x4x8x16x4, .f32⟩ : BufTy).Contents (Elt Ideal)) (X2 : (⟨S32x8, .f32⟩ : BufTy).Contents (Elt Ideal)) (X3 : (⟨S32, .f32⟩ : BufTy).Contents (Elt Ideal)) (X4 : (⟨S64x32, .f32⟩ : BufTy).Contents (Elt Ideal)) (X5 : (⟨S8x512, .f32⟩ : BufTy).Contents (Elt Ideal)) (X6 : (⟨S8, .f32⟩ : BufTy).Contents (Elt Ideal)) (X7 : (⟨S64x64, .f32⟩ : BufTy).Contents (Elt Ideal)) (X8 : (⟨S64, .f32⟩ : BufTy).Contents (Elt Ideal)) (X9 : (⟨S1x64, .f32⟩ : BufTy).Contents (Elt Ideal)) (X10 : (⟨S1, .f32⟩ : BufTy).Contents (Elt Ideal)) (X11 : (⟨S1x64, .f32⟩ : BufTy).Contents (Elt Ideal)) (X12 : (⟨S1, .f32⟩ : BufTy).Contents (Elt Ideal)) (X13 : (⟨S1x32, .f32⟩ : BufTy).Contents (Elt Ideal)) (X14 : (⟨S1, .f32⟩ : BufTy).Contents (Elt Ideal)) (X15 : (⟨S1x32, .f32⟩ : BufTy).Contents (Elt Ideal)) (X16 : (⟨S1, .f32⟩ : BufTy).Contents (Elt Ideal)) (X17 : (⟨S4x8x64, .f32⟩ : BufTy).Contents (Elt Ideal)) (X18 : (⟨S4x8x64, .f32⟩ : BufTy).Contents (Elt Ideal)) (X19 : (⟨S4, .f32⟩ : BufTy).Contents (Elt Ideal))

local notation "W" => argW X2 X3 X4 X5 X6 X7 X8 X9 X10 X11 X12 X13 X14 X15 X16 X17 X18 X19
local notation "V4" => val_main_v4 (F := Ideal) X0 X2 X3
local notation "V27" => val_main_v27 (F := Ideal) X0 X2 X3 X13 X14 X15 X16
local notation "V30" => val_main_v30 (F := Ideal) X0 X2 X3 X4
local notation "V36" => val_main_v36 (F := Ideal) X0 X2 X3 X4 X7 X8
local notation "V47" => val_main_v47 (F := Ideal) X0 X2 X3 X4 X7 X8 X9 X10
local notation "V58" => val_main_v58 (F := Ideal) X0 X2 X3 X4 X7 X8 X11 X12
local notation "V69" => val_main_v69 (F := Ideal) X0 X2 X3 X4 X18 X19
local notation "V73" => val_main_v73 (F := Ideal) X0 X2 X3 X4 X7 X8 X9 X10 X11 X12 X18 X19
local notation "V79" => val_main_v79 (F := Ideal) X17
local notation "V82" => val_main_v82 (F := Ideal) X0 X2 X3 X4 X13 X14 X15 X16
local notation "V91" => val_main_v91 (F := Ideal) X0 X1 X2 X3 X4 X7 X8 X9 X10 X11 X12 X13 X14 X15 X16 X17 X18 X19
local notation "V94" => val_main_v94 (F := Ideal) X0 X1 X2 X3 X4 X7 X8 X9 X10 X11 X12 X13 X14 X15 X16 X17 X18 X19
local notation "V100" => val_main_v100 (F := Ideal) X0 X1 X2 X3 X4 X5 X6 X7 X8 X9 X10 X11 X12 X13 X14 X15 X16 X17 X18 X19

/-- s1 at (b, j). -/
theorem r4 (i : S65536x32.Idx) : V4 i = s1 W (xr X0 (i 0)) (i 1) := by
  have e1 : ∀ k, lidx_main_v1 i k = ix2 (n0 := 65536) (i 0) k := fun k => by idx2
  have e2 : ∀ k, idx_main_v0 (ridx_main_v1 i k) = ix2 (n0 := 32) (i 1) k := fun k => by idx2
  have e3 : idx_main_v2 (idx_main_v3 i) = ix1 (n := 32) (i 1) := by idx1
  simp only [val_main_v4_apply, val_main_v1_apply, val_main_v3_apply, val_main_v2_apply, val_main_v0_apply, e1, e2, e3]
  rfl

/-- The surprise at row b. -/
theorem r27 (i : S65536x1.Idx) : V27 i = sur W (xr X0 (i 0)) := by
  have e1 : ∀ k, lidx_main_v6 i k = ix2 (n0 := 65536) (i 0) k := fun k => by idx2
  have e2 : ∀ k, idx_main_v5 (ridx_main_v6 i k) = ix2 (0 : Fin 1) k := fun k => by
    funext a; match a with | ⟨0, _⟩ => exact fin1 _ | ⟨1, _⟩ => rfl
  have e3 : idx_main_v7 (idx_main_v8 i) = ix1 (0 : Fin 1) := by
    funext a; match a with | ⟨0, _⟩ => exact fin1 _
  have e4 : ∀ k, lidx_main_v17 i k = ix2 (n0 := 65536) (i 0) k := fun k => by idx2
  have e5 : ∀ k, idx_main_v16 (ridx_main_v17 i k) = ix2 (0 : Fin 1) k := fun k => by
    funext a; match a with | ⟨0, _⟩ => exact fin1 _ | ⟨1, _⟩ => rfl
  have e6 : idx_main_v18 (idx_main_v19 i) = ix1 (0 : Fin 1) := by
    funext a; match a with | ⟨0, _⟩ => exact fin1 _
  simp only [val_main_v27_apply, val_main_v15_apply, val_main_v14_apply, val_main_cst_0_apply, val_main_v13_apply, val_main_v12_apply, val_main_cst_apply, val_main_v11_apply, val_main_v10_apply, val_main_v9_apply, val_main_v6_apply, val_main_v8_apply, val_main_v7_apply, val_main_v5_apply, val_main_v26_apply, val_main_v25_apply, val_main_cst_2_apply, val_main_v24_apply, val_main_v23_apply, val_main_cst_1_apply, val_main_v22_apply, val_main_v21_apply, val_main_v20_apply, val_main_v17_apply, val_main_v19_apply, val_main_v18_apply, val_main_v16_apply,
    e1, e2, e3, e4, e5, e6, r4 X0 X2 X3 X4 X5 X6 X7 X8 X9 X10 X11 X12 X13 X14 X15 X16 X17 X18 X19, host_sig]
  rfl

/-- s2 at (b, m). -/
theorem r30 (i : S65536x64.Idx) : V30 i = s2 W (xr X0 (i 0)) (i 1) := by
  have e1 : ∀ k, lidx_main_v29 i k = ix2 (n0 := 65536) (i 0) k := fun k => by idx2
  have e2 : ∀ k, idx_main_v28 (ridx_main_v29 i k) = ix2 (n0 := 64) (i 1) k := fun k => by idx2
  simp only [val_main_v30_apply, val_main_v29_apply, val_main_v28_apply, e1, e2, r4 X0 X2 X3 X4 X5 X6 X7 X8 X9 X10 X11 X12 X13 X14 X15 X16 X17 X18 X19]
  rfl

/-- The governor's hidden layer at (b, n). -/
theorem r36 (i : S65536x64.Idx) : V36 i = hg W (xr X0 (i 0)) (i 1) := by
  have e1 : ∀ k, lidx_main_v32 i k = ix2 (n0 := 65536) (i 0) k := fun k => by idx2
  have e2 : ∀ k, idx_main_v31 (ridx_main_v32 i k) = ix2 (n0 := 64) (i 1) k := fun k => by idx2
  have e3 : idx_main_v33 (idx_main_v34 i) = ix1 (n := 64) (i 1) := by idx1
  simp only [val_main_v36_apply, val_main_v35_apply, val_main_v32_apply, val_main_v31_apply, val_main_v34_apply, val_main_v33_apply, val_main_call0_v0_apply, val_main_call0_cst_apply, e1, e2, e3, r30 X0 X2 X3 X4 X5 X6 X7 X8 X9 X10 X11 X12 X13 X14 X15 X16 X17 X18 X19]
  rfl

/-- Engagement at row b. -/
theorem r47 (i : S65536x1.Idx) : V47 i = eng W (xr X0 (i 0)) := by
  have e1 : ∀ k, lidx_main_v38 i k = ix2 (n0 := 65536) (i 0) k := fun k => by idx2
  have e2 : ∀ k, idx_main_v37 (ridx_main_v38 i k) = ix2 (0 : Fin 1) k := fun k => by
    funext a; match a with | ⟨0, _⟩ => exact fin1 _ | ⟨1, _⟩ => rfl
  have e3 : idx_main_v39 (idx_main_v40 i) = ix1 (0 : Fin 1) := by
    funext a; match a with | ⟨0, _⟩ => exact fin1 _
  simp only [val_main_v47_apply, val_main_v46_apply, val_main_cst_4_apply, val_main_v45_apply, val_main_v44_apply, val_main_cst_3_apply, val_main_v43_apply, val_main_v42_apply, val_main_v41_apply, val_main_v38_apply, val_main_v40_apply, val_main_v39_apply, val_main_v37_apply, e1, e2, e3, r36 X0 X2 X3 X4 X5 X6 X7 X8 X9 X10 X11 X12 X13 X14 X15 X16 X17 X18 X19, host_sig]
  rfl

/-- Impulse at row b. -/
theorem r58 (i : S65536x1.Idx) : V58 i = imp W (xr X0 (i 0)) := by
  have e1 : ∀ k, lidx_main_v49 i k = ix2 (n0 := 65536) (i 0) k := fun k => by idx2
  have e2 : ∀ k, idx_main_v48 (ridx_main_v49 i k) = ix2 (0 : Fin 1) k := fun k => by
    funext a; match a with | ⟨0, _⟩ => exact fin1 _ | ⟨1, _⟩ => rfl
  have e3 : idx_main_v50 (idx_main_v51 i) = ix1 (0 : Fin 1) := by
    funext a; match a with | ⟨0, _⟩ => exact fin1 _
  simp only [val_main_v58_apply, val_main_v57_apply, val_main_cst_6_apply, val_main_v56_apply, val_main_v55_apply, val_main_cst_5_apply, val_main_v54_apply, val_main_v53_apply, val_main_v52_apply, val_main_v49_apply, val_main_v51_apply, val_main_v50_apply, val_main_v48_apply, e1, e2, e3, r36 X0 X2 X3 X4 X5 X6 X7 X8 X9 X10 X11 X12 X13 X14 X15 X16 X17 X18 X19, host_sig]
  rfl

/-- The halting gate at (b, l, r). -/
theorem r69 (i : S65536x4x8.Idx) : V69 i = halt W (xr X0 (i 0)) (i 1) (i 2) := by
  have e1 : ∀ k, lidx_main_v59 i k = ix2 (n0 := 65536) (i 0) k := fun k => by idx2
  have e2 : ∀ k, ridx_main_v59 i k = ix3 (n0 := 4) (n1 := 8) (i 1) (i 2) k := fun k => by idx3
  have e3 : idx_main_v60 (idx_main_v61 (idx_main_v62 i)) = ix1 (n := 4) (i 1) := by idx1
  simp only [val_main_v69_apply, val_main_v68_apply, val_main_cst_8_apply, val_main_v67_apply, val_main_v66_apply, val_main_cst_7_apply, val_main_v65_apply, val_main_v64_apply, val_main_v63_apply, val_main_v59_apply, val_main_v62_apply, val_main_v61_apply, val_main_v60_apply, e1, e2, e3, r30 X0 X2 X3 X4 X5 X6 X7 X8 X9 X10 X11 X12 X13 X14 X15 X16 X17 X18 X19, host_sig]
  rfl

/-- The gate at (b, l, r). -/
theorem r73 (i : S65536x4x8.Idx) : V73 i = gate W (xr X0 (i 0)) (i 1) (i 2) := by
  simp only [val_main_v73_apply, val_main_v72_apply, val_main_v71_apply, val_main_v70_apply, r69 X0 X2 X3 X4 X5 X6 X7 X8 X9 X10 X11 X12 X13 X14 X15 X16 X17 X18 X19, r47 X0 X2 X3 X4 X5 X6 X7 X8 X9 X10 X11 X12 X13 X14 X15 X16 X17 X18 X19, r58 X0 X2 X3 X4 X5 X6 X7 X8 X9 X10 X11 X12 X13 X14 X15 X16 X17 X18 X19]
  rfl

/-- The decay gate at (l, r, m). -/
theorem r79 (i : S4x8x64.Idx) : V79 i = Ideal.logistic (X17 i) := by
  simp only [val_main_v79_apply, val_main_v78_apply, val_main_cst_10_apply, val_main_v77_apply, val_main_v76_apply, val_main_cst_9_apply, val_main_v75_apply, val_main_v74_apply, host_sig]

/-- The write vector at (b, m). -/
theorem r82 (i : S65536x64.Idx) : V82 i = wr W (xr X0 (i 0)) (i 1) := by
  simp only [val_main_v82_apply, val_main_v81_apply, r27 X0 X2 X3 X4 X5 X6 X7 X8 X9 X10 X11 X12 X13 X14 X15 X16 X17 X18 X19, r30 X0 X2 X3 X4 X5 X6 X7 X8 X9 X10 X11 X12 X13 X14 X15 X16 X17 X18 X19]
  rfl

/-- The slab [B,4,8,16,4] seen as [B,4,8,64]: feature m is (m / 4, m mod 4). -/
theorem slab_idx (b : Fin 65536) (l : Fin 4) (r : Fin 8) (m : Fin 64) :
    idx_main_v80 (ix4 b l r m) = ix5 b l r (d16 m) (c4 m) := by
  funext a
  apply Fin.ext
  have hb := b.isLt
  have hl := l.isLt
  have hr := r.isLt
  have hm := m.isLt
  match a with
  | ⟨0, _⟩ => show (((b.val * 4 + l.val) * 8 + r.val) * 64 + m.val) / 2048 = b.val; omega
  | ⟨1, _⟩ => show (((b.val * 4 + l.val) * 8 + r.val) * 64 + m.val) / 512 % 4 = l.val; omega
  | ⟨2, _⟩ => show (((b.val * 4 + l.val) * 8 + r.val) * 64 + m.val) / 64 % 8 = r.val; omega
  | ⟨3, _⟩ => show (((b.val * 4 + l.val) * 8 + r.val) * 64 + m.val) / 4 % 16 = m.val / 4; omega
  | ⟨4, _⟩ => show (((b.val * 4 + l.val) * 8 + r.val) * 64 + m.val) % 4 = m.val % 4; omega

/-- The updated slab at (b, l, r, m). -/
theorem r91 (b : Fin 65536) (l : Fin 4) (r : Fin 8) (m : Fin 64) :
    V91 (ix4 b l r m) = Hr X1 b l r m * Ideal.logistic ((W).dec l r m) + gate W (xr X0 b) l r * wr W (xr X0 b) m := by
  have e1 : idx_main_v84 (idx_main_v85 (ix4 b l r m)) = ix3 l r m := by idx3
  simp only [val_main_v91_apply, val_main_v86_apply, val_main_v80_apply, val_main_v85_apply, val_main_v84_apply, val_main_v90_apply, val_main_v88_apply, val_main_v87_apply, val_main_v89_apply, val_main_v83_apply, r79 X17, r73 X0 X2 X3 X4 X5 X6 X7 X8 X9 X10 X11 X12 X13 X14 X15 X16 X17 X18 X19, r82 X0 X2 X3 X4 X5 X6 X7 X8 X9 X10 X11 X12 X13 X14 X15 X16 X17 X18 X19, e1, slab_idx]
  rfl

/-- The read vector at (b, r, m). -/
theorem r94 (b : Fin 65536) (r : Fin 8) (m : Fin 64) : V94 (ix3 b r m) = readR W (xr X0 b) (Hr X1 b) r m := by
  have e1 : ∀ k, idx_main_v92 (ix3 b r m) k = ix4 b k r m := fun k => by idx4
  simp only [val_main_v94_apply, val_main_v93_apply, val_main_cst_12_apply, val_main_v92_apply, val_main_cst_11_apply, e1, r91 X0 X1 X2 X3 X4 X5 X6 X7 X8 X9 X10 X11 X12 X13 X14 X15 X16 X17 X18 X19]
  rfl

/-- The read vector [B,8,64] seen as [B,512]: position j is (j / 64, j mod 64). -/
theorem read_idx (b : Fin 65536) (j : Fin 512) : idx_main_v95 (ix2 b j) = ix3 b (r64 j) (m64 j) := by
  funext a
  apply Fin.ext
  have hb := b.isLt
  have hj := j.isLt
  match a with
  | ⟨0, _⟩ => show (b.val * 512 + j.val) / 512 = b.val; omega
  | ⟨1, _⟩ => show (b.val * 512 + j.val) / 64 % 8 = j.val / 64; omega
  | ⟨2, _⟩ => show (b.val * 512 + j.val) % 64 = j.val % 64; omega

/-- The reference's result at (b, o) is the read-out of row b. -/
theorem r100 (b : Fin 65536) (o : Fin 8) : V100 (ix2 b o) = outR W (xr X0 b) (Hr X1 b) o := by
  have e1 : ∀ k, lidx_main_v97 (ix2 b o) k = ix2 b k := fun k => by idx2
  have e2 : ∀ k, idx_main_v96 (ridx_main_v97 (ix2 b o) k) = ix2 o k := fun k => by idx2
  have e3 : idx_main_v98 (idx_main_v99 (ix2 b o)) = ix1 o := by idx1
  simp only [val_main_v100_apply, val_main_v97_apply, val_main_v95_apply, val_main_v96_apply, val_main_v99_apply, val_main_v98_apply, e1, e2, e3, read_idx, r94 X0 X1 X2 X3 X4 X5 X6 X7 X8 X9 X10 X11 X12 X13 X14 X15 X16 X17 X18 X19]
  rfl

end Cert.Mem.RefRows

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  From the precondition to real entries. The precondition is the conjunction, argument by argument, of
  all(|x| < +inf); peeling the conjunction from the right down to its second member gives all(|H| < +inf) = 1, and an
  extended real whose absolute value is below +inf is a real number: every entry of the slab H is real.
-/
import proofs.«162835_j32899449488193_2_alg».proof.Pre_finite_inputs
import proofs.«162835_j32899449488193_2_alg».proof.Proof.LibFinite
import Idealize.ShloMosaic.Lib.Affine

noncomputable section

namespace Cert.Mem.Finite

open Cert.Pre_finite_inputs Cert.Pre_finite_inputs.Facts Idealize.ShloMosaic Idealize.ShloMosaic.ValueIdx

/-- The left member of a conjunction of truth words that is 1 is 1. -/
theorem andL {c d : BitVec 1} (h : IntOp.andi c d = 1#1) : c = 1#1 := (IntOp.andi_eq_one.mp h).1
theorem andR {c d : BitVec 1} (h : IntOp.andi c d = 1#1) : d = 1#1 := (IntOp.andi_eq_one.mp h).2

set_option maxRecDepth 4096 in
/-- Under the precondition every entry of the slab (the second argument) is a real number. -/
theorem slab_real [Facts] (a0 : FVec Ideal S65536x8 .f32) (a1 : FVec Ideal S65536x4x8x16x4 .f32) (a2 : FVec Ideal S32x8 .f32)
    (a3 : FVec Ideal S32 .f32) (a4 : FVec Ideal S64x32 .f32) (a5 : FVec Ideal S8x512 .f32) (a6 : FVec Ideal S8 .f32)
    (a7 : FVec Ideal S64x64 .f32) (a8 : FVec Ideal S64 .f32) (a9 : FVec Ideal S1x64 .f32) (a10 : FVec Ideal S1 .f32)
    (a11 : FVec Ideal S1x64 .f32) (a12 : FVec Ideal S1 .f32) (a13 : FVec Ideal S1x32 .f32) (a14 : FVec Ideal S1 .f32)
    (a15 : FVec Ideal S1x32 .f32) (a16 : FVec Ideal S1 .f32) (a17 a18 : FVec Ideal S4x8x64 .f32) (a19 : FVec Ideal S4 .f32)
    (h : fn (F := Ideal) a0 a1 a2 a3 a4 a5 a6 a7 a8 a9 a10 a11 a12 a13 a14 a15 a16 a17 a18 a19 = fun _ => 1#1) :
    ∀ i, ∃ r : ℝ, a1 i = (r : EReal) := by
  have h0 := congrFun h ix0
  dsimp only [fn, fn_part1, fn_part2, fn_part3, fn_part4, fn_part5] at h0
  have h8 := (andL (andL (andL (andL (andL (andL (andL (andL (andL (andL (andL (andL (andL (andL (andL (andL (andL (andL h0))))))))))))))))))
  exact Cert.LibFinite.real_of_all a1 bcast_S_S65536x4x8x16x4 reducesTo_S65536x4x8x16x4_S_d0_1_2_3_4 h_S_ ix0 (andR h8)

end Cert.Mem.Finite

end
-- ==== Proof.lean ====
/-
  The certificate of the gated multi-slot memory read-out kernel against its reference.

  Both programs compute, for every batch row b, the read-out of Proof/Spec.lean: a small perceptron on x(b) yields the
  surprise, the bridge vector s2, the governor's engagement and impulse and the per-slot halting gates; the slab H(b)
  is decayed by σ(decays), the write vector surprise·s2 is added under the gates, the result is averaged over the four
  layers and read out through W_read. The reference takes the mean of the updated slab; the kernel sums H·(σ(decays)/4)
  over the layers and adds the write vector times the mean gate. On the extended reals the two agree because σ and tanh
  are real-valued and, by the precondition, so are the entries of H (Proof/Spec.lean `outK_eq_outR`, Proof/Finite.lean).

  The kernel's result array is read block by block off its generated frame run (Proof/Blocks.lean over Proof/KBody.lean,
  Proof/KRows.lean and Proof/HostPre.lean), the reference's off its generated run, one operation at a time
  (Proof/RefRows.lean). The three frames are the generated ones; the idealization rewrote nothing.
-/
import proofs.«162835_j32899449488193_2_alg».proof.Defs
import proofs.«162835_j32899449488193_2_alg».proof.Proof.Gen.Kernel
import proofs.«162835_j32899449488193_2_alg».proof.Proof.Gen.Kernel.Skeleton
import proofs.«162835_j32899449488193_2_alg».proof.Proof.Gen.Kernel.Launch
import proofs.«162835_j32899449488193_2_alg».proof.Proof.Gen.Kernel.Points
import proofs.«162835_j32899449488193_2_alg».proof.Proof.Gen.Kernel.Frame
import proofs.«162835_j32899449488193_2_alg».proof.Proof.Gen.KernelIdeal
import proofs.«162835_j32899449488193_2_alg».proof.Proof.Gen.KernelIdeal.Skeleton
import proofs.«162835_j32899449488193_2_alg».proof.Proof.Gen.KernelIdeal.Launch
import proofs.«162835_j32899449488193_2_alg».proof.Proof.Gen.KernelIdeal.Points
import proofs.«162835_j32899449488193_2_alg».proof.Proof.Gen.KernelIdeal.Frame
import proofs.«162835_j32899449488193_2_alg».proof.Proof.Gen.ReferenceIdeal
import proofs.«162835_j32899449488193_2_alg».proof.Proof.Gen.Pre_finite_inputs
import proofs.«162835_j32899449488193_2_alg».proof.Proof.Gen.KernelIdeal.Value
import proofs.«162835_j32899449488193_2_alg».proof.Proof.Gen.ReferenceIdeal.Run
import proofs.«162835_j32899449488193_2_alg».proof.Proof.Gen.ReferenceIdeal.Read
import proofs.«162835_j32899449488193_2_alg».proof.Proof.Blocks
import proofs.«162835_j32899449488193_2_alg».proof.Proof.RefRows
import proofs.«162835_j32899449488193_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array holding, row by row, the read-out of that row. -/
theorem algebraic : Cert.algebraic_KernelIdeal_ReferenceIdeal := by
  intro m ρ m' ρ' hpre hagree
  have hH : ∀ (c : Dev Cert.KernelIdeal.nD) i, ∃ r : ℝ,
      (m ((c.tc : Thread Cert.KernelIdeal.nD Cert.KernelIdeal.τ).loc Cert.KernelIdeal.main_arg1) : Cert.KernelIdeal.S65536x4x8x16x4.Idx → EReal) i = (r : EReal) :=
    fun c => Cert.Mem.Finite.slab_real _ _ _ _ _ _ _ _ _ _ _ _ _ _ _ _ _ _ _ _ (hpre c)
  refine ⟨fun c => Cert.Mem.Blocks.G m c, ?_, ?_⟩
  · exact (θ_run Cert.KernelIdeal.defs _ _).mono
      (fun r h c => ⟨(h c).1.trans (Cert.Mem.Blocks.final m c (hH c)), (h c).2⟩) (Cert.KernelIdeal.Value.run_blocks m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19⟩ := hagree c
    rw [(h c).1, Cert.ReferenceIdeal.Read.val_main_v100_eq, e0, e1, e2, e3, e4, e5, e6, e7, e8, e9, e10, e11, e12, e13, e14, e15, e16, e17, e18, e19]
    funext i
    obtain ⟨b, o, rfl⟩ : ∃ (b : Fin 65536) (o : Fin 8), i = ix2 b o := ⟨i 0, i 1, eq_ix2 i⟩
    exact Cert.Mem.RefRows.r100 _ _ _ _ _ _ _ _ _ _ _ _ _ _ _ _ _ _ _ _ b o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
